-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x4 : S_.BroadcastsInDim S2x4 (![] : Fin 0 → Fin S2x4.rank)
  reducesTo_S2x4_S_d0_1 : S2x4.ReducesTo [0, 1] S_

variable [Facts]

def fn_part2 {F : FTy → Type} [FloatOps F] (main_arg8 : FVec F S2x4 .f32) (main_arg9 : FVec F S4 .f32) (main_v33 : IVec S_ 1) : IVec S_ 1 :=
  let main_v34 : FVec F S2x4 .f32 := Host.absf main_arg8
  let main_cst_12 : FVec F S_ .f32 := constant S_ .f32 0x7F800000#32
  let main_v35 : FVec F S2x4 .f32 := broadcastInDim S2x4 ![] bcast_S_S2x4 main_cst_12
  let main_v36 : IVec S2x4 1 := cmpf .olt main_v34 main_v35
  let main_c_13 : IVec S_ 1 := constantI S_ 1 1#1
  let main_v37 : IVec S_ 1 := (fun x v => Host.reduce IntOp.andi x v reducesTo_S2x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S4 .f32) (main_arg6 : FVec F S4x2 .f32) (main_arg7 : FVec F S2 .f32) (main_arg8 : FVec F S2x4 .f32) (main_arg9 : FVec F S4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x6400000 32) (main_arg2 : FVec F S128x4 .f32) (main_arg3 : FVec F S4 .f32) (main_arg4 : FVec F S4x4 .f32) (main_arg5 : FVec F S4 .f32) (main_arg6 : FVec F S4x2 .f32) (main_arg7 : FVec F S2 .f32) (main_arg8 : FVec F S2x4 .f32) (main_arg9 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x6400000 : Shape := ⟨2, ![2, 6400000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x4 : Shape := ⟨2, ![100000, 4]⟩
abbrev S10000x128 : Shape := ⟨2, ![10000, 128]⟩
abbrev S10000x4 : Shape := ⟨2, ![10000, 4]⟩
abbrev S6500000x4 : Shape := ⟨2, ![6500000, 4]⟩
abbrev S1x4 : Shape := ⟨2, ![1, 4]⟩
abbrev S100000x2 : Shape := ⟨2, ![100000, 2]⟩
abbrev S10000x2 : Shape := ⟨2, ![10000, 2]⟩
abbrev S6500000x2 : Shape := ⟨2, ![6500000, 2]⟩
abbrev S1x2 : Shape := ⟨2, ![1, 2]⟩

abbrev nBuf : Space → Nat
  | .hbm => 107
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x4, .f32⟩
  | .hbm, ⟨9, _⟩ => ⟨S4, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S6500000, .i32⟩
  | .hbm, ⟨33, _⟩ => ⟨S6500000, .i1⟩
  | .hbm, ⟨34, _⟩ => ⟨S_, .i32⟩
  | .hbm, ⟨35, _⟩ => ⟨S6500000, .i32⟩
  | .hbm, ⟨36, _⟩ => ⟨S6500000, .i32⟩
  | .hbm, ⟨37, _⟩ => ⟨S6500000, .i32⟩
  | .hbm, ⟨38, _⟩ => ⟨S6500000x1, .i32⟩
  | .hbm, ⟨39, _⟩ => ⟨S6500000, .f32⟩
  | .hbm, ⟨40, _⟩ => ⟨S_, .i32⟩
  | .hbm, ⟨41, _⟩ => ⟨S6500000, .i32⟩
  | .hbm, ⟨42, _⟩ => ⟨S6500000, .i1⟩
  | .hbm, ⟨43, _⟩ => ⟨S_, .i32⟩
  | .hbm, ⟨44, _⟩ => ⟨S6500000, .i32⟩
  | .hbm, ⟨45, _⟩ => ⟨S6500000, .i32⟩
  | .hbm, ⟨46, _⟩ => ⟨S6500000, .i32⟩
  | .hbm, ⟨47, _⟩ => ⟨S6500000x1, .i32⟩
  | .hbm, ⟨48, _⟩ => ⟨S6500000, .f32⟩
  | .hbm, ⟨49, _⟩ => ⟨S6500000, .f32⟩
  | .hbm, ⟨50, _⟩ => ⟨S100000x4, .f32⟩
  | .hbm, ⟨51, _⟩ => ⟨S6500000x1, .f32⟩
  | .hbm, ⟨52, _⟩ => ⟨S_, .i32⟩
  | .hbm, ⟨53, _⟩ => ⟨S6500000, .i32⟩
  | .hbm, ⟨54, _⟩ => ⟨S6500000, .i1⟩
  | .hbm, ⟨55, _⟩ => ⟨S_, .i32⟩
  | .hbm, ⟨56, _⟩ => ⟨S6500000, .i32⟩
  | .hbm, ⟨57, _⟩ => ⟨S6500000, .i32⟩
  | .hbm, ⟨58, _⟩ => ⟨S6500000, .i32⟩
  | .hbm, ⟨59, _⟩ => ⟨S6500000x1, .i32⟩
  | .hbm, ⟨60, _⟩ => ⟨S6500000x4, .f32⟩
  | .hbm, ⟨61, _⟩ => ⟨S6500000x4, .f32⟩
  | .hbm, ⟨62, _⟩ => ⟨S6500000x4, .f32⟩
  | .hbm, ⟨63, _⟩ => ⟨S_, .f32⟩
  | .hbm, ⟨64, _⟩ => ⟨S100000x4, .f32⟩
  | .hbm, ⟨65, _⟩ => ⟨S6500000x1, .i32⟩
  | .hbm, ⟨66, _⟩ => ⟨S100000x4, .f32⟩
  | .hbm, ⟨67, _⟩ => ⟨S1x4, .f32⟩
  | .hbm, ⟨68, _⟩ => ⟨S100000x4, .f32⟩
  | .hbm, ⟨69, _⟩ => ⟨S6500000x1, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x4, .f32⟩
  | .hbm, ⟨79, _⟩ => ⟨S6500000x4, .f32⟩
  | .hbm, ⟨80, _⟩ => ⟨S6500000x4, .f32⟩
  | .hbm, ⟨81, _⟩ => ⟨S_, .f32⟩
  | .hbm, ⟨82, _⟩ => ⟨S100000x4, .f32⟩
  | .hbm, ⟨83, _⟩ => ⟨S6500000x1, .i32⟩
  | .hbm, ⟨84, _⟩ => ⟨S100000x4, .f32⟩
  | .hbm, ⟨85, _⟩ => ⟨S1x4, .f32⟩
  | .hbm, ⟨86, _⟩ => ⟨S100000x2, .f32⟩
  | .hbm, ⟨87, _⟩ => ⟨S6500000x1, .f32⟩
  | .hbm, ⟨88, _⟩ => ⟨S_, .i32⟩
  | .hbm, ⟨89, _⟩ => ⟨S6500000, .i32⟩
  | .hbm, ⟨90, _⟩ => ⟨S6500000, .i1⟩
  | .hbm, ⟨91, _⟩ => ⟨S_, .i32⟩
  | .hbm, ⟨92, _⟩ => ⟨S6500000, .i32⟩
  | .hbm, ⟨93, _⟩ => ⟨S6500000, .i32⟩
  | .hbm, ⟨94, _⟩ => ⟨S6500000, .i32⟩
  | .hbm, ⟨95, _⟩ => ⟨S6500000x1, .i32⟩
  | .hbm, ⟨96, _⟩ => ⟨S6500000x2, .f32⟩
  | .hbm, ⟨97, _⟩ => ⟨S6500000x2, .f32⟩
  | .hbm, ⟨98, _⟩ => ⟨S6500000x2, .f32⟩
  | .hbm, ⟨99, _⟩ => ⟨S_, .f32⟩
  | .hbm, ⟨100, _⟩ => ⟨S100000x2, .f32⟩
  | .hbm, ⟨101, _⟩ => ⟨S6500000x1, .i32⟩
  | .hbm, ⟨102, _⟩ => ⟨S100000x2, .f32⟩
  | .hbm, ⟨103, _⟩ => ⟨S1x2, .f32⟩
  | .hbm, ⟨104, _⟩ => ⟨S1x4, .f32⟩
  | .hbm, ⟨105, _⟩ => ⟨S100000x4, .f32⟩
  | .hbm, ⟨106, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x4, .f32⟩
  | .local _ .vmem, ⟨3, _⟩ => ⟨S10000x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S1x4, .f32⟩
  | .local _ .vmem, ⟨8, _⟩ => ⟨S4x4, .f32⟩
  | .local _ .vmem, ⟨9, _⟩ => ⟨S10000x4, .f32⟩
  | .local _ .vmem, ⟨10, _⟩ => ⟨S10000x4, .f32⟩
  | .local _ .vmem, ⟨11, _⟩ => ⟨S10000x4, .f32⟩
  | .local _ .vmem, ⟨12, _⟩ => ⟨S10000x4, .f32⟩
  | .local _ .vmem, ⟨13, _⟩ => ⟨S1x4, .f32⟩
  | .local _ .vmem, ⟨14, _⟩ => ⟨S4x2, .f32⟩
  | .local _ .vmem, ⟨15, _⟩ => ⟨S10000x2, .f32⟩
  | .local _ .vmem, ⟨16, _⟩ => ⟨S10000x2, .f32⟩
  | .local _ .vmem, ⟨17, _⟩ => ⟨S10000x2, .f32⟩
  | .local _ .vmem, ⟨18, _⟩ => ⟨S10000x2, .f32⟩
  | .local _ .vmem, ⟨19, _⟩ => ⟨S1x2, .f32⟩
  | .local _ .vmem, ⟨20, _⟩ => ⟨S2x4, .f32⟩
  | .local _ .vmem, ⟨21, _⟩ => ⟨S1x4, .f32⟩
  | .local _ .vmem, ⟨22, _⟩ => ⟨S10000x4, .f32⟩
  | .local _ .vmem, ⟨23, _⟩ => ⟨S10000x4, .f32⟩
  | .local _ .vmem, ⟨24, _⟩ => ⟨S10000x2, .f32⟩
  | .local _ .vmem, ⟨25, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x4 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S10000x4_S10000x4_0_0 : ∀ a, (![0, 0] : Fin 2 → Nat) a + S10000x4.size a ≤ S10000x4.size a
  h_S10000x4 : 0 < S10000x4.numel
  bcast_S6500000x1_S6500000x4_0_1 : S6500000x1.BroadcastsInDim S6500000x4 (![0, 1] : Fin 2 → Fin S6500000x4.rank)
  bcast_S_S100000x4 : S_.BroadcastsInDim S100000x4 (![] : Fin 0 → Fin S100000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S10000x2_S10000x2_0_0 : ∀ a, (![0, 0] : Fin 2 → Nat) a + S10000x2.size a ≤ S10000x2.size a
  h_S10000x2 : 0 < S10000x2.numel
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S2x4_S2x4_0_0 : ∀ a, (![0, 0] : Fin 2 → Nat) a + S2x4.size a ≤ S2x4.size a
  h_S2x4 : 0 < S2x4.numel
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x128_S128x4_S10000x4_1_0_0_1_n_n_wf : DotDims.WF S10000x128 S128x4 S10000x4 [1] [0] [0] [1] [] []
  gather_S100000x4_S6500000x1_S6500000x4_1_0_n_n_0_1_14_wf : GatherDims.WF S100000x4 S6500000x1 S6500000x4 [1] [0] [] [0] [] 1 ![1, 4]
  scatter_S100000x4_S6500000x1_S6500000x4_1_0_0_1_wf : ScatterDims.WF S100000x4 S6500000x1 S6500000x4 [1] [0] [0] 1
  dot_S10000x4_S4x4_S10000x4_1_0_0_1_n_n_wf : DotDims.WF S10000x4 S4x4 S10000x4 [1] [0] [0] [1] [] []
  dot_S10000x4_S4x2_S10000x2_1_0_0_1_n_n_wf : DotDims.WF S10000x4 S4x2 S10000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  dot_S10000x2_S2x4_S10000x4_1_0_0_1_n_n_wf : DotDims.WF S10000x2 S2x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S100000x4.size a
  hwx0_2 : ∀ i : grid0.Coords, EltTy.bits .f32 = 32 ∨ (Rect.block (s := S100000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S100000x4.size a
  hwx1_0 : ∀ i : grid1.Coords, EltTy.bits .f32 = 32 ∨ (Rect.block (s := S100000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x4.size a ≤ S4x4.size a
  hwx1_2 : ∀ i : grid1.Coords, EltTy.bits .f32 = 32 ∨ (Rect.block (s := S4x4) S4x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x4.size a ≤ S100000x4.size a
  hwx1_3 : ∀ i : grid1.Coords, EltTy.bits .f32 = 32 ∨ (Rect.block (s := S100000x4) S10000x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S100000x4.size a
  hwx2_0 : ∀ i : grid2.Coords, EltTy.bits .f32 = 32 ∨ (Rect.block (s := S100000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4.size a ≤ S1x4.size a
  hwx2_1 : ∀ i : grid2.Coords, EltTy.bits .f32 = 32 ∨ (Rect.block (s := S1x4) S1x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x2.size a ≤ S4x2.size a
  hwx2_2 : ∀ i : grid2.Coords, EltTy.bits .f32 = 32 ∨ (Rect.block (s := S4x2) S4x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S100000x2.size a
  hwx2_3 : ∀ i : grid2.Coords, EltTy.bits .f32 = 32 ∨ (Rect.block (s := S100000x2) S10000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2x4.size a ≤ S2x4.size a
  hwx3_2 : ∀ i : grid3.Coords, EltTy.bits .f32 = 32 ∨ (Rect.block (s := S2x4) S2x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4.size a ≤ S1x4.size a
  hwx3_3 : ∀ i : grid3.Coords, EltTy.bits .f32 = 32 ∨ (Rect.block (s := S1x4) S1x4.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x4.size a ≤ S100000x4.size a
  hwx3_4 : ∀ i : grid3.Coords, EltTy.bits .f32 = 32 ∨ (Rect.block (s := S100000x4) S10000x4.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x2.size a ≤ S100000x2.size a
  hwx3_5 : ∀ i : grid3.Coords, EltTy.bits .f32 = 32 ∨ (Rect.block (s := S100000x2) S10000x2.size (cc3_transform_5 i) (hinb3_5 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def gather_S100000x4_S6500000x1_S6500000x4_1_0_n_n_0_1_14 : GatherDims S100000x4 S6500000x1 S6500000x4 where
  offsetDims := [1]
  collapsedSliceDims := [0]
  operandBatchingDims := []
  startIndicesBatchingDims := []
  startIndexMap := [0]
  indexVectorDim := 1
  sliceSizes := ![1, 4]
  wf := gather_S100000x4_S6500000x1_S6500000x4_1_0_n_n_0_1_14_wf
def scatter_S100000x4_S6500000x1_S6500000x4_1_0_0_1 : ScatterDims S100000x4 S6500000x1 S6500000x4 where
  updateWindowDims := [1]
  insertedWindowDims := [0]
  scatterDimsToOperandDims := [0]
  indexVectorDim := 1
  wf := scatter_S100000x4_S6500000x1_S6500000x4_1_0_0_1_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf
def dot_S10000x2_S2x4_S10000x4_1_0_0_1_n_n : DotDims S10000x2 S2x4 S10000x4 where
  lhsContracting := [1]
  rhsContracting := [0]
  lhsNonContracting := [0]
  rhsNonContracting := [1]
  lhsBatch := []
  rhsBatch := []
  wf := dot_S10000x2_S2x4_S10000x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S4x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S2x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76_0) S10000x4.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v76_1) S10000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x4 : Shape := ⟨2, ![100000, 4]⟩
abbrev S6500000x4 : Shape := ⟨2, ![6500000, 4]⟩
abbrev S1x4 : Shape := ⟨2, ![1, 4]⟩
abbrev S100000x2 : Shape := ⟨2, ![100000, 2]⟩
abbrev S6500000x2 : Shape := ⟨2, ![6500000, 2]⟩
abbrev S1x2 : Shape := ⟨2, ![1, 2]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x4, .f32⟩
  | .hbm, ⟨9, _⟩ => ⟨S4, .f32⟩
  | .hbm, ⟨10, _⟩ => ⟨S100000, .i32⟩
  | .hbm, ⟨11, _⟩ => ⟨S1x6400000, .i32⟩
  | .hbm, ⟨12, _⟩ => ⟨S6400000, .i32⟩
  | .hbm, ⟨13, _⟩ => ⟨S6500000, .i32⟩
  | .hbm, ⟨14, _⟩ => ⟨S1x6400000, .i32⟩
  | .hbm, ⟨15, _⟩ => ⟨S6400000, .i32⟩
  | .hbm, ⟨16, _⟩ => ⟨S6500000, .i32⟩
  | .hbm, ⟨17, _⟩ => ⟨S_, .f32⟩
  | .hbm, ⟨18, _⟩ => ⟨S6500000, .f32⟩
  | .hbm, ⟨19, _⟩ => ⟨S_, .f32⟩
  | .hbm, ⟨20, _⟩ => ⟨S100000, .f32⟩
  | .hbm, ⟨21, _⟩ => ⟨S6500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S6500000, .i32⟩
  | .hbm, ⟨33, _⟩ => ⟨S6500000, .i1⟩
  | .hbm, ⟨34, _⟩ => ⟨S_, .i32⟩
  | .hbm, ⟨35, _⟩ => ⟨S6500000, .i32⟩
  | .hbm, ⟨36, _⟩ => ⟨S6500000, .i32⟩
  | .hbm, ⟨37, _⟩ => ⟨S6500000, .i32⟩
  | .hbm, ⟨38, _⟩ => ⟨S6500000x1, .i32⟩
  | .hbm, ⟨39, _⟩ => ⟨S6500000, .f32⟩
  | .hbm, ⟨40, _⟩ => ⟨S_, .i32⟩
  | .hbm, ⟨41, _⟩ => ⟨S6500000, .i32⟩
  | .hbm, ⟨42, _⟩ => ⟨S6500000, .i1⟩
  | .hbm, ⟨43, _⟩ => ⟨S_, .i32⟩
  | .hbm, ⟨44, _⟩ => ⟨S6500000, .i32⟩
  | .hbm, ⟨45, _⟩ => ⟨S6500000, .i32⟩
  | .hbm, ⟨46, _⟩ => ⟨S6500000, .i32⟩
  | .hbm, ⟨47, _⟩ => ⟨S6500000x1, .i32⟩
  | .hbm, ⟨48, _⟩ => ⟨S6500000, .f32⟩
  | .hbm, ⟨49, _⟩ => ⟨S6500000, .f32⟩
  | .hbm, ⟨50, _⟩ => ⟨S100000x4, .f32⟩
  | .hbm, ⟨51, _⟩ => ⟨S6500000x1, .f32⟩
  | .hbm, ⟨52, _⟩ => ⟨S_, .i32⟩
  | .hbm, ⟨53, _⟩ => ⟨S6500000, .i32⟩
  | .hbm, ⟨54, _⟩ => ⟨S6500000, .i1⟩
  | .hbm, ⟨55, _⟩ => ⟨S_, .i32⟩
  | .hbm, ⟨56, _⟩ => ⟨S6500000, .i32⟩
  | .hbm, ⟨57, _⟩ => ⟨S6500000, .i32⟩
  | .hbm, ⟨58, _⟩ => ⟨S6500000, .i32⟩
  | .hbm, ⟨59, _⟩ => ⟨S6500000x1, .i32⟩
  | .hbm, ⟨60, _⟩ => ⟨S6500000x4, .f32⟩
  | .hbm, ⟨61, _⟩ => ⟨S6500000x4, .f32⟩
  | .hbm, ⟨62, _⟩ => ⟨S6500000x4, .f32⟩
  | .hbm, ⟨63, _⟩ => ⟨S_, .f32⟩
  | .hbm, ⟨64, _⟩ => ⟨S100000x4, .f32⟩
  | .hbm, ⟨65, _⟩ => ⟨S6500000x1, .i32⟩
  | .hbm, ⟨66, _⟩ => ⟨S100000x4, .f32⟩
  | .hbm, ⟨67, _⟩ => ⟨S1x4, .f32⟩
  | .hbm, ⟨68, _⟩ => ⟨S100000x4, .f32⟩
  | .hbm, ⟨69, _⟩ => ⟨S100000x4, .f32⟩
  | .hbm, ⟨70, _⟩ => ⟨S_, .f32⟩
  | .hbm, ⟨71, _⟩ => ⟨S100000x4, .f32⟩
  | .hbm, ⟨72, _⟩ => ⟨S100000x4, .f32⟩
  | .hbm, ⟨73, _⟩ => ⟨S100000x4, .f32⟩
  | .hbm, ⟨74, _⟩ => ⟨S6500000x1, .f32⟩
  | .hbm, ⟨75, _⟩ => ⟨S_, .i32⟩
  | .hbm, ⟨76, _⟩ => ⟨S6500000, .i32⟩
  | .hbm, ⟨77, _⟩ => ⟨S6500000, .i1⟩
  | .hbm, ⟨78, _⟩ => ⟨S_, .i32⟩
  | .hbm, ⟨79, _⟩ => ⟨S6500000, .i32⟩
  | .hbm, ⟨80, _⟩ => ⟨S6500000, .i32⟩
  | .hbm, ⟨81, _⟩ => ⟨S6500000, .i32⟩
  | .hbm, ⟨82, _⟩ => ⟨S6500000x1, .i32⟩
  | .hbm, ⟨83, _⟩ => ⟨S6500000x4, .f32⟩
  | .hbm, ⟨84, _⟩ => ⟨S6500000x4, .f32⟩
  | .hbm, ⟨85, _⟩ => ⟨S6500000x4, .f32⟩
  | .hbm, ⟨86, _⟩ => ⟨S_, .f32⟩
  | .hbm, ⟨87, _⟩ => ⟨S100000x4, .f32⟩
  | .hbm, ⟨88, _⟩ => ⟨S6500000x1, .i32⟩
  | .hbm, ⟨89, _⟩ => ⟨S100000x4, .f32⟩
  | .hbm, ⟨90, _⟩ => ⟨S1x4, .f32⟩
  | .hbm, ⟨91, _⟩ => ⟨S100000x4, .f32⟩
  | .hbm, ⟨92, _⟩ => ⟨S100000x4, .f32⟩
  | .hbm, ⟨93, _⟩ => ⟨S_, .f32⟩
  | .hbm, ⟨94, _⟩ => ⟨S100000x4, .f32⟩
  | .hbm, ⟨95, _⟩ => ⟨S100000x4, .f32⟩
  | .hbm, ⟨96, _⟩ => ⟨S100000x2, .f32⟩
  | .hbm, ⟨97, _⟩ => ⟨S6500000x1, .f32⟩
  | .hbm, ⟨98, _⟩ => ⟨S_, .i32⟩
  | .hbm, ⟨99, _⟩ => ⟨S6500000, .i32⟩
  | .hbm, ⟨100, _⟩ => ⟨S6500000, .i1⟩
  | .hbm, ⟨101, _⟩ => ⟨S_, .i32⟩
  | .hbm, ⟨102, _⟩ => ⟨S6500000, .i32⟩
  | .hbm, ⟨103, _⟩ => ⟨S6500000, .i32⟩
  | .hbm, ⟨104, _⟩ => ⟨S6500000, .i32⟩
  | .hbm, ⟨105, _⟩ => ⟨S6500000x1, .i32⟩
  | .hbm, ⟨106, _⟩ => ⟨S6500000x2, .f32⟩
  | .hbm, ⟨107, _⟩ => ⟨S6500000x2, .f32⟩
  | .hbm, ⟨108, _⟩ => ⟨S6500000x2, .f32⟩
  | .hbm, ⟨109, _⟩ => ⟨S_, .f32⟩
  | .hbm, ⟨110, _⟩ => ⟨S100000x2, .f32⟩
  | .hbm, ⟨111, _⟩ => ⟨S6500000x1, .i32⟩
  | .hbm, ⟨112, _⟩ => ⟨S100000x2, .f32⟩
  | .hbm, ⟨113, _⟩ => ⟨S1x2, .f32⟩
  | .hbm, ⟨114, _⟩ => ⟨S100000x2, .f32⟩
  | .hbm, ⟨115, _⟩ => ⟨S100000x2, .f32⟩
  | .hbm, ⟨116, _⟩ => ⟨S_, .f32⟩
  | .hbm, ⟨117, _⟩ => ⟨S100000x2, .f32⟩
  | .hbm, ⟨118, _⟩ => ⟨S100000x2, .f32⟩
  | .hbm, ⟨119, _⟩ => ⟨S100000x4, .f32⟩
  | .hbm, ⟨120, _⟩ => ⟨S1x4, .f32⟩
  | .hbm, ⟨121, _⟩ => ⟨S100000x4, .f32⟩
  | .hbm, ⟨122, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x4_0_1 : S6500000x1.BroadcastsInDim S6500000x4 (![0, 1] : Fin 2 → Fin S6500000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x128_S128x4_S100000x4_1_0_0_1_n_n_wf : DotDims.WF S100000x128 S128x4 S100000x4 [1] [0] [0] [1] [] []
  gather_S100000x4_S6500000x1_S6500000x4_1_0_n_n_0_1_14_wf : GatherDims.WF S100000x4 S6500000x1 S6500000x4 [1] [0] [] [0] [] 1 ![1, 4]
  scatter_S100000x4_S6500000x1_S6500000x4_1_0_0_1_wf : ScatterDims.WF S100000x4 S6500000x1 S6500000x4 [1] [0] [0] 1
  dot_S100000x4_S4x4_S100000x4_1_0_0_1_n_n_wf : DotDims.WF S100000x4 S4x4 S100000x4 [1] [0] [0] [1] [] []
  dot_S100000x4_S4x2_S100000x2_1_0_0_1_n_n_wf : DotDims.WF S100000x4 S4x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  dot_S100000x2_S2x4_S100000x4_1_0_0_1_n_n_wf : DotDims.WF S100000x2 S2x4 S100000x4 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def gather_S100000x4_S6500000x1_S6500000x4_1_0_n_n_0_1_14 : GatherDims S100000x4 S6500000x1 S6500000x4 where
  offsetDims := [1]
  collapsedSliceDims := [0]
  operandBatchingDims := []
  startIndicesBatchingDims := []
  startIndexMap := [0]
  indexVectorDim := 1
  sliceSizes := ![1, 4]
  wf := gather_S100000x4_S6500000x1_S6500000x4_1_0_n_n_0_1_14_wf
def scatter_S100000x4_S6500000x1_S6500000x4_1_0_0_1 : ScatterDims S100000x4 S6500000x1 S6500000x4 where
  updateWindowDims := [1]
  insertedWindowDims := [0]
  scatterDimsToOperandDims := [0]
  indexVectorDim := 1
  wf := scatter_S100000x4_S6500000x1_S6500000x4_1_0_0_1_wf
def dot_S100000x4_S4x4_S100000x4_1_0_0_1_n_n : DotDims S100000x4 S4x4 S100000x4 where
  lhsContracting := [1]
  rhsContracting := [0]
  lhsNonContracting := [0]
  rhsNonContracting := [1]
  lhsBatch := []
  rhsBatch := []
  wf := dot_S100000x4_S4x4_S100000x4_1_0_0_1_n_n_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf
def dot_S100000x2_S2x4_S100000x4_1_0_0_1_n_n : DotDims S100000x2 S2x4 S100000x4 where
  lhsContracting := [1]
  rhsContracting := [0]
  lhsNonContracting := [0]
  rhsNonContracting := [1]
  lhsBatch := []
  rhsBatch := []
  wf := dot_S100000x2_S2x4_S100000x4_1_0_0_1_n_n_wf

class Facts : Prop extends Facts₀ where

variable [Facts]
-- ==== Proof.Spec.lean ====
/-
  The mathematics of one graph-convolution network on a fixed edge list, as functions of whole arrays over the
  extended reals. A node table has one row per node. A DENSE layer multiplies every row by a small weight matrix: entry
  (r, c) of the result is the sum over k of a(r, k) · w(k, c). Between dense layers the rows are AGGREGATED along the
  edges (a gather of rows, a scaling by the edge's normalisation, a scatter-add into the target rows); the aggregation
  is never opened here: both programs apply the very same host operations for it, so it only appears as an argument.
  After an aggregation a bias is added along the columns and the positive part is taken.
-/
import Idealize.ShloMosaic.PureOps.Ideal
import Idealize.ShloMosaic.Lib.ValueIdx

noncomputable section

namespace GraphConv

open Idealize.ShloMosaic Idealize.ShloMosaic.ValueIdx

/-- A dense layer: entry (r, c) is the sum over the contracted axis of a(r, k) · w(k, c). -/
def dense {R K C : Nat} (a : (⟨2, ![R, K]⟩ : Shape).Idx → EReal) (w : (⟨2, ![K, C]⟩ : Shape).Idx → EReal) :
    (⟨2, ![R, C]⟩ : Shape).Idx → EReal :=
  fun i => ∑ k : Fin K, a (ix2 (i 0) k) * w (ix2 k (i 1))

/-- A bias added along the columns, then the positive part: max(a(r, k) + b(k), 0), the zero written as the f32 word
    both programs print for it. -/
def biasRelu {R K : Nat} (a : (⟨2, ![R, K]⟩ : Shape).Idx → EReal) (b : (⟨1, ![K]⟩ : Shape).Idx → EReal) :
    (⟨2, ![R, K]⟩ : Shape).Idx → EReal :=
  fun i => max (a i + b (ix1 (i 1))) (Ideal.ofBits .f32 0x00000000#32)

/-- A bias added along the columns. -/
def addBias {R K : Nat} (a : (⟨2, ![R, K]⟩ : Shape).Idx → EReal) (b : (⟨1, ![K]⟩ : Shape).Idx → EReal) :
    (⟨2, ![R, K]⟩ : Shape).Idx → EReal :=
  fun i => a i + b (ix1 (i 1))

/-- A one-row table read as a vector: the kernels receive each bias reshaped to 1 × K. -/
def rowVec {K : Nat} (b : (⟨2, ![1, K]⟩ : Shape).Idx → EReal) : (⟨1, ![K]⟩ : Shape).Idx → EReal :=
  fun k => b (ix2 (0 : Fin 1) (k 0))

theorem biasRelu_apply {R K : Nat} (a : (⟨2, ![R, K]⟩ : Shape).Idx → EReal) (b : (⟨1, ![K]⟩ : Shape).Idx → EReal)
    (r : Fin R) (k : Fin K) : biasRelu a b (ix2 r k) = max (a (ix2 r k) + b (ix1 k)) (Ideal.ofBits .f32 0x00000000#32) := rfl

theorem addBias_apply {R K : Nat} (a : (⟨2, ![R, K]⟩ : Shape).Idx → EReal) (b : (⟨1, ![K]⟩ : Shape).Idx → EReal)
    (r : Fin R) (k : Fin K) : addBias a b (ix2 r k) = a (ix2 r k) + b (ix1 k) := rfl

theorem rowVec_apply {K : Nat} (b : (⟨2, ![1, K]⟩ : Shape).Idx → EReal) (k : Fin K) : rowVec b (ix1 k) = b (ix2 (0 : Fin 1) k) := rfl

/-- Equal factors give equal products. -/
theorem mul_congr {a a' b b' : EReal} (h1 : a = a') (h2 : b = b') : a * b = a' * b' := by rw [h1, h2]

/-- Equal first arguments give equal maxima. -/
theorem max_congr {a a' z : EReal} (h : a = a') : max a z = max a' z := by rw [h]

/-- Equal summands give equal sums. -/
theorem add_congr {a a' b b' : EReal} (h1 : a = a') (h2 : b = b') : a + b = a' + b' := by rw [h1, h2]

theorem dense_apply {R K C : Nat} (a : (⟨2, ![R, K]⟩ : Shape).Idx → EReal) (w : (⟨2, ![K, C]⟩ : Shape).Idx → EReal)
    (r : Fin R) (c : Fin C) : dense a w (ix2 r c) = ∑ k : Fin K, a (ix2 r k) * w (ix2 k c) := rfl

end GraphConv

end
-- ==== Proof.RefSide.lean ====
/-
  The reference program, stage by stage, in the words of the specification. Its two results are
      y3  = biasRelu (aggregate2 (dense y2 W3)) b3          out = addBias (dense y3 Wc) bc
      y2  = biasRelu (aggregate4 (dense y1 W2)) b2          y1  = biasRelu (aggregate4 (dense x W1)) b1
  where `aggregate4` / `aggregate2` are the host's gather – scale – scatter-add along the edge list (with the self loops
  and the symmetric degree normalisation), functions of the edge index and of a node table. Each host `dot_general` is
  the dense layer index by index (a sum over the one contracted axis); the bias is broadcast along the rows and the
  rectifier is a maximum with a broadcast zero, so both read at an index are `biasRelu`. The aggregations are not opened.
-/
import proofs.«104388_j25469156065531_1_alg».proof.Defs
import proofs.«104388_j25469156065531_1_alg».proof.Proof.RefRead
import proofs.«104388_j25469156065531_1_alg».proof.Proof.Spec

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx
open GraphConv

/-- Aggregation of a 4-column node table along the edges: every edge gathers its source node's row, scales it by the
    edge's normalisation and adds it into its target node's row. -/
def aggregate4 (e : (⟨S2x6400000, .i32⟩ : BufTy).Contents (Elt Ideal)) (xw : (⟨S100000x4, .f32⟩ : BufTy).Contents (Elt Ideal)) :
    (⟨S100000x4, .f32⟩ : BufTy).Contents (Elt Ideal) :=
  Host.scatterAdd (F := Ideal) (φ := .f32) scatter_S100000x4_S6500000x1_S6500000x4_1_0_0_1 (val_main_v41 (F := Ideal)) (val_main_v42 (F := Ideal) e)
    (mulf (F := Ideal) (φ := .f32) (val_main_v39 (F := Ideal) e) (Host.gather gather_S100000x4_S6500000x1_S6500000x4_1_0_n_n_0_1_14 xw (val_main_v37 (F := Ideal) e)))

/-- The same aggregation of a 2-column node table. -/
def aggregate2 (e : (⟨S2x6400000, .i32⟩ : BufTy).Contents (Elt Ideal)) (xw : (⟨S100000x2, .f32⟩ : BufTy).Contents (Elt Ideal)) :
    (⟨S100000x2, .f32⟩ : BufTy).Contents (Elt Ideal) :=
  Host.scatterAdd (F := Ideal) (φ := .f32) scatter_S100000x2_S6500000x1_S6500000x2_1_0_0_1 (val_main_v77 (F := Ideal)) (val_main_v78 (F := Ideal) e)
    (mulf (F := Ideal) (φ := .f32) (val_main_v75 (F := Ideal) e) (Host.gather gather_S100000x2_S6500000x1_S6500000x2_1_0_n_n_0_1_12 xw (val_main_v73 (F := Ideal) e)))

variable (x0 : (⟨S100000x128, .f32⟩ : BufTy).Contents (Elt Ideal)) (x1 : (⟨S2x6400000, .i32⟩ : BufTy).Contents (Elt Ideal))
  (x2 : (⟨S128x4, .f32⟩ : BufTy).Contents (Elt Ideal)) (x3 : (⟨S4, .f32⟩ : BufTy).Contents (Elt Ideal))
  (x4 : (⟨S4x4, .f32⟩ : BufTy).Contents (Elt Ideal)) (x5 : (⟨S4, .f32⟩ : BufTy).Contents (Elt Ideal))
  (x6 : (⟨S4x2, .f32⟩ : BufTy).Contents (Elt Ideal)) (x7 : (⟨S2, .f32⟩ : BufTy).Contents (Elt Ideal))
  (x8 : (⟨S2x4, .f32⟩ : BufTy).Contents (Elt Ideal)) (x9 : (⟨S4, .f32⟩ : BufTy).Contents (Elt Ideal))

/-! ## The first layer -/

/-- x · W1 is the dense layer. -/
theorem stage_xw1 : val_main_v30 (F := Ideal) x0 x2 = dense x0 x2 := by
  funext i
  rw [val_main_v30_apply]
  refine Finset.sum_congr rfl fun k _ => ?_
  have el : lidx_main_v30 i k = ix2 (i 0) k := funext fun a => Fin.ext (by match a with | ⟨0, _⟩ => rfl | ⟨1, _⟩ => rfl)
  have er : ridx_main_v30 i k = ix2 k (i 1) := funext fun a => Fin.ext (by match a with | ⟨0, _⟩ => rfl | ⟨1, _⟩ => rfl)
  exact mul_congr (congrArg x0 el) (congrArg x2 er)

set_option maxRecDepth 65536 in
/-- The first aggregation is `aggregate4` of x · W1. -/
theorem stage_agg1 : val_main_v43 (F := Ideal) x0 x1 x2 = aggregate4 x1 (val_main_v30 (F := Ideal) x0 x2) := rfl

/-- Bias and rectifier after the first aggregation. -/
theorem stage_y1 : val_main_v47 (F := Ideal) x0 x1 x2 x3 = biasRelu (val_main_v43 (F := Ideal) x0 x1 x2) x3 := by
  funext i
  rw [val_main_v47_apply, val_main_v46_apply, val_main_v45_apply, val_main_v44_apply, val_main_call1_v0_apply, val_main_call1_cst_apply]
  have e : idx_main_v44 (idx_main_v45 i) = ix1 (i 1) := funext fun a => Fin.ext (by match a with | ⟨0, _⟩ => rfl)
  rw [e]
  rfl

/-! ## The second layer -/

theorem stage_xw2 : val_main_v48 (F := Ideal) x0 x1 x2 x3 x4 = dense (val_main_v47 (F := Ideal) x0 x1 x2 x3) x4 := by
  funext i
  rw [val_main_v48_apply]
  refine Finset.sum_congr rfl fun k _ => ?_
  have el : lidx_main_v48 i k = ix2 (i 0) k := funext fun a => Fin.ext (by match a with | ⟨0, _⟩ => rfl | ⟨1, _⟩ => rfl)
  have er : ridx_main_v48 i k = ix2 k (i 1) := funext fun a => Fin.ext (by match a with | ⟨0, _⟩ => rfl | ⟨1, _⟩ => rfl)
  exact mul_congr (congrArg (val_main_v47 (F := Ideal) x0 x1 x2 x3) el) (congrArg x4 er)

set_option maxRecDepth 65536 in
theorem stage_agg2 : val_main_v61 (F := Ideal) x0 x1 x2 x3 x4 = aggregate4 x1 (val_main_v48 (F := Ideal) x0 x1 x2 x3 x4) := rfl

theorem stage_y2 : val_main_v65 (F := Ideal) x0 x1 x2 x3 x4 x5 = biasRelu (val_main_v61 (F := Ideal) x0 x1 x2 x3 x4) x5 := by
  funext i
  rw [val_main_v65_apply, val_main_v64_apply, val_main_v63_apply, val_main_v62_apply, val_main_call2_v0_apply, val_main_call2_cst_apply]
  have e : idx_main_v62 (idx_main_v63 i) = ix1 (i 1) := funext fun a => Fin.ext (by match a with | ⟨0, _⟩ => rfl)
  rw [e]
  rfl

/-! ## The third layer -/

theorem stage_xw3 : val_main_v66 (F := Ideal) x0 x1 x2 x3 x4 x5 x6 = dense (val_main_v65 (F := Ideal) x0 x1 x2 x3 x4 x5) x6 := by
  funext i
  rw [val_main_v66_apply]
  refine Finset.sum_congr rfl fun k _ => ?_
  have el : lidx_main_v66 i k = ix2 (i 0) k := funext fun a => Fin.ext (by match a with | ⟨0, _⟩ => rfl | ⟨1, _⟩ => rfl)
  have er : ridx_main_v66 i k = ix2 k (i 1) := funext fun a => Fin.ext (by match a with | ⟨0, _⟩ => rfl | ⟨1, _⟩ => rfl)
  exact mul_congr (congrArg (val_main_v65 (F := Ideal) x0 x1 x2 x3 x4 x5) el) (congrArg x6 er)

set_option maxRecDepth 65536 in
theorem stage_agg3 : val_main_v79 (F := Ideal) x0 x1 x2 x3 x4 x5 x6 = aggregate2 x1 (val_main_v66 (F := Ideal) x0 x1 x2 x3 x4 x5 x6) := rfl

/-- The second result: bias and rectifier after the third aggregation. -/
theorem stage_y3 : val_main_v83 (F := Ideal) x0 x1 x2 x3 x4 x5 x6 x7 = biasRelu (val_main_v79 (F := Ideal) x0 x1 x2 x3 x4 x5 x6) x7 := by
  funext i
  rw [val_main_v83_apply, val_main_v82_apply, val_main_v81_apply, val_main_v80_apply, val_main_call3_v0_apply, val_main_call3_cst_apply]
  have e : idx_main_v80 (idx_main_v81 i) = ix1 (i 1) := funext fun a => Fin.ext (by match a with | ⟨0, _⟩ => rfl)
  rw [e]
  rfl

/-! ## The classifier -/

theorem stage_logits : val_main_v84 (F := Ideal) x0 x1 x2 x3 x4 x5 x6 x7 x8 = dense (val_main_v83 (F := Ideal) x0 x1 x2 x3 x4 x5 x6 x7) x8 := by
  funext i
  rw [val_main_v84_apply]
  refine Finset.sum_congr rfl fun k _ => ?_
  have el : lidx_main_v84 i k = ix2 (i 0) k := funext fun a => Fin.ext (by match a with | ⟨0, _⟩ => rfl | ⟨1, _⟩ => rfl)
  have er : ridx_main_v84 i k = ix2 k (i 1) := funext fun a => Fin.ext (by match a with | ⟨0, _⟩ => rfl | ⟨1, _⟩ => rfl)
  exact mul_congr (congrArg (val_main_v83 (F := Ideal) x0 x1 x2 x3 x4 x5 x6 x7) el) (congrArg x8 er)

/-- The first result: the classifier's bias added. -/
theorem stage_out : val_main_v87 (F := Ideal) x0 x1 x2 x3 x4 x5 x6 x7 x8 x9 = addBias (val_main_v84 (F := Ideal) x0 x1 x2 x3 x4 x5 x6 x7 x8) x9 := by
  funext i
  rw [val_main_v87_apply, val_main_v86_apply, val_main_v85_apply]
  have e : idx_main_v85 (idx_main_v86 i) = ix1 (i 1) := funext fun a => Fin.ext (by match a with | ⟨0, _⟩ => rfl)
  rw [e]
  rfl

/-! ## The two results as compositions -/

/-- The node table after the three graph-convolution layers, as the reference computes it. -/
def refY3 : (⟨S100000x2, .f32⟩ : BufTy).Contents (Elt Ideal) :=
  biasRelu (aggregate2 x1 (dense (biasRelu (aggregate4 x1 (dense (biasRelu (aggregate4 x1 (dense x0 x2)) x3) x4)) x5) x6)) x7

theorem result_y3 : val_main_v83 (F := Ideal) x0 x1 x2 x3 x4 x5 x6 x7 = refY3 x0 x1 x2 x3 x4 x5 x6 x7 := by
  unfold refY3
  rw [stage_y3, stage_agg3, stage_xw3, stage_y2, stage_agg2, stage_xw2, stage_y1, stage_agg1, stage_xw1]

theorem result_out : val_main_v87 (F := Ideal) x0 x1 x2 x3 x4 x5 x6 x7 x8 x9 = addBias (dense (refY3 x0 x1 x2 x3 x4 x5 x6 x7) x8) x9 := by
  rw [stage_out, stage_logits, result_y3]

end Cert.ReferenceIdeal.RefValue

end
-- ==== Proof.KernelRun.lean ====
/-
  The idealized kernel's run with its two result arrays NAMED. The program is four kernel regions among stretches of
  host operations; the contents of every buffer at each boundary are a fold from the launch memory (a host stretch
  applies its operations, a region leaves each of its arrays at what its write-backs leave). Every weakly fair
  execution terminates with every buffer at the last boundary's contents; here that is read at the two result buffers
  and at the ten argument buffers.
-/
import proofs.«104388_j25469156065531_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; each result buffer ends at the last boundary's contents
    of it, and each argument buffer as launched. -/
theorem run_results : θ_run defs (onTc (τ := τ) (main (F := F))) ⟨m, fun _ => 0, ρ⟩ (fun r => ∀ c : Dev nD,
      r.2.mem ((c.tc : Thread nD τ).loc main_v76_0) = W10 m ρ c (Proc.devRef .tc main_v76_0)
      ∧ r.2.mem ((c.tc : Thread nD τ).loc main_v76_1) = W10 m ρ c (Proc.devRef .tc main_v76_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76_0 (by decide)),
       h c _ (mem_uc main_v76_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Hand

end
-- ==== Proof.KernelHost.lean ====
/-
  What the idealized kernel's host operations compute, boundary by boundary. Before the first region the host builds,
  from the edge index alone, the source and target node of every edge (with the self loops appended) and the edge
  normalisation; no later operation and no region writes those three arrays or any argument, so each of them is found
  unchanged at every later boundary. Between two regions the host aggregates the previous region's output along the
  edges — the very operations the reference applies, so the result is the reference's aggregation of that output — and
  reshapes the next bias to one row.
-/
import proofs.«104388_j25469156065531_1_alg».proof.Proof.Gen.KernelIdeal.Frame
import proofs.«104388_j25469156065531_1_alg».proof.Proof.RefSide
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.RefValue (aggregate4 aggregate2)

variable (m : (ℓ : Loc nD τ sig) → Buf (Elt Ideal) ℓ) (ρ : Dev nD → PrngReg)

/-- Reads a buffer through the three host stretches before the first region, down to the launch memory. -/
local macro "read_prologue" : tactic =>
  `(tactic| (dsimp only [W3, W2, W1, hostOps0_2, hostOps0_1, hostOps0]; after_results_simp))

/-- Walks a buffer that nothing writes back from a later boundary to the first region's entry: a region leaves every
    buffer that is not one of its arrays, a host stretch every buffer none of its operations writes. -/
local macro "walk_back" : tactic =>
  `(tactic| repeat (first
      | (rw [W10_of_ne]; rotate_left; decide)
      | (rw [W8_of_ne]; rotate_left; decide)
      | (rw [W6_of_ne]; rotate_left; decide)
      | (rw [W4_of_ne]; rotate_left; decide)
      | (dsimp only [W9, W7, W5, hostOps3, hostOps2, hostOps1]; after_results_simp)))

/-! ## At the first region's entry -/

/-- The source node of every edge, self loops appended. -/
theorem entry0_row (c : Dev nD) : W3 m ρ c (Proc.devRef .tc main_v3)
    = Cert.ReferenceIdeal.ReadP.val_main_v3 (F := Ideal) (m ((c.tc : Thread nD τ).loc main_arg1)) := by
  read_prologue <;> rfl

/-- The target node of every edge, self loops appended. -/
theorem entry0_col (c : Dev nD) : W3 m ρ c (Proc.devRef .tc main_v6)
    = Cert.ReferenceIdeal.ReadP.val_main_v6 (F := Ideal) (m ((c.tc : Thread nD τ).loc main_arg1)) := by
  read_prologue <;> rfl

/-- The degrees: a one for every edge, scattered onto the edge's target node. -/
theorem entry0_deg (c : Dev nD) : W3 m ρ c (Proc.devRef .tc main_v10)
    = Host.scatterAdd (F := Ideal) (φ := .f32) scatter_S100000_S6500000x1_S6500000_n_0_0_1
        (broadcastInDim S100000 ![] bcast_S_S100000 (constant (F := Ideal) S_ .f32 0x00000000#32))
        (broadcastInDim S6500000x1 ![0] bcast_S6500000_S6500000x1_0 (W3 m ρ c (Proc.devRef .tc main_v6)))
        (broadcastInDim S6500000 ![] bcast_S_S6500000 (constant (F := Ideal) S_ .f32 0x3F800000#32)) := by
  read_prologue <;> rfl

/-- The inverse square roots of the positive degrees, zero elsewhere. The degree test is an inlined call, whose
    operations read and write their buffers through typed views (transports along each buffer's declared type). -/
theorem entry0_dinv (c : Dev nD) : W3 m ρ c (Proc.devRef .tc main_v14)
    = (TRef.of (sig := sig) (T := ⟨S100000, .f32⟩) main_v14).toBuf (Val := Elt Ideal)
        (select
          ((TRef.of (sig := sig) (T := ⟨S100000, .i1⟩) main_v12).ofBuf (Val := Elt Ideal)
            (cmpf (F := Ideal) (φ := .f32) .ogt (W3 m ρ c (Proc.devRef .tc main_v10))
              (broadcastInDim S100000 ![] bcast_S_S100000 (constant (F := Ideal) S_ .f32 0x00000000#32))))
          ((TRef.of (sig := sig) (T := ⟨S100000, .f32⟩) main_v13).ofBuf (Val := Elt Ideal)
            (Host.rsqrt (F := Ideal) (φ := .f32) (W3 m ρ c (Proc.devRef .tc main_v10))))
          ((TRef.of (sig := sig) (T := ⟨S100000, .f32⟩) main_call0_v1).ofBuf (Val := Elt Ideal)
            ((TRef.of (sig := sig) (T := ⟨S100000, .f32⟩) main_call0_v1).toBuf (Val := Elt Ideal)
              (broadcastInDim S100000 ![] bcast_S_S100000
                ((TRef.of (sig := sig) (T := ⟨S_, .f32⟩) main_call0_v0).ofBuf (Val := Elt Ideal)
                  ((TRef.of (sig := sig) (T := ⟨S_, .f32⟩) main_call0_v0).toBuf (Val := Elt Ideal)
                    (id ((TRef.of (sig := sig) (T := ⟨S_, .f32⟩) main_cst_2).ofBuf (Val := Elt Ideal)
                      (constant (F := Ideal) S_ .f32 0x00000000#32))))))))) := by
  read_prologue <;> rfl

/-- The edge normalisation: that table read at the edge's source and at its target (negative indices wrapped), the two
    readings multiplied. -/
theorem entry0_norm_step (c : Dev nD) : W3 m ρ c (Proc.devRef .tc main_v29)
    = mulf (F := Ideal) (φ := .f32)
        (Host.gather gather_S100000_S6500000x1_S6500000_n_0_n_n_0_1_1 (W3 m ρ c (Proc.devRef .tc main_v14))
          (broadcastInDim S6500000x1 ![0] bcast_S6500000_S6500000x1_0
            (select (cmpi .slt (W3 m ρ c (Proc.devRef .tc main_v3)) (broadcastInDim S6500000 ![] bcast_S_S6500000 (constantI S_ 32 0#32)))
              (addi (W3 m ρ c (Proc.devRef .tc main_v3)) (broadcastInDim S6500000 ![] bcast_S_S6500000 (constantI S_ 32 100000#32)))
              (W3 m ρ c (Proc.devRef .tc main_v3)))))
        (Host.gather gather_S100000_S6500000x1_S6500000_n_0_n_n_0_1_1 (W3 m ρ c (Proc.devRef .tc main_v14))
          (broadcastInDim S6500000x1 ![0] bcast_S6500000_S6500000x1_0
            (select (cmpi .slt (W3 m ρ c (Proc.devRef .tc main_v6)) (broadcastInDim S6500000 ![] bcast_S_S6500000 (constantI S_ 32 0#32)))
              (addi (W3 m ρ c (Proc.devRef .tc main_v6)) (broadcastInDim S6500000 ![] bcast_S_S6500000 (constantI S_ 32 100000#32)))
              (W3 m ρ c (Proc.devRef .tc main_v6))))) := by
  read_prologue <;> rfl

/-- The degrees of the reference's target array are the reference's degree stage. -/
theorem deg_of_col (E : (⟨S2x6400000, .i32⟩ : BufTy).Contents (Elt Ideal)) :
    Host.scatterAdd (F := Ideal) (φ := .f32) scatter_S100000_S6500000x1_S6500000_n_0_0_1
        (broadcastInDim S100000 ![] bcast_S_S100000 (constant (F := Ideal) S_ .f32 0x00000000#32))
        (broadcastInDim S6500000x1 ![0] bcast_S6500000_S6500000x1_0 (Cert.ReferenceIdeal.ReadP.val_main_v6 (F := Ideal) E))
        (broadcastInDim S6500000 ![] bcast_S_S6500000 (constant (F := Ideal) S_ .f32 0x3F800000#32))
      = Cert.ReferenceIdeal.ReadP.val_main_v10 (F := Ideal) E := rfl

/-- The typed views of the inlined degree test are identities, whatever the degrees. -/
theorem dinv_views (D : (⟨S100000, .f32⟩ : BufTy).Contents (Elt Ideal)) :
    (TRef.of (sig := sig) (T := ⟨S100000, .f32⟩) main_v14).toBuf (Val := Elt Ideal)
        (select
          ((TRef.of (sig := sig) (T := ⟨S100000, .i1⟩) main_v12).ofBuf (Val := Elt Ideal)
            (cmpf (F := Ideal) (φ := .f32) .ogt D
              (broadcastInDim S100000 ![] bcast_S_S100000 (constant (F := Ideal) S_ .f32 0x00000000#32))))
          ((TRef.of (sig := sig) (T := ⟨S100000, .f32⟩) main_v13).ofBuf (Val := Elt Ideal)
            (Host.rsqrt (F := Ideal) (φ := .f32) D))
          ((TRef.of (sig := sig) (T := ⟨S100000, .f32⟩) main_call0_v1).ofBuf (Val := Elt Ideal)
            ((TRef.of (sig := sig) (T := ⟨S100000, .f32⟩) main_call0_v1).toBuf (Val := Elt Ideal)
              (broadcastInDim S100000 ![] bcast_S_S100000
                ((TRef.of (sig := sig) (T := ⟨S_, .f32⟩) main_call0_v0).ofBuf (Val := Elt Ideal)
                  ((TRef.of (sig := sig) (T := ⟨S_, .f32⟩) main_call0_v0).toBuf (Val := Elt Ideal)
                    (id ((TRef.of (sig := sig) (T := ⟨S_, .f32⟩) main_cst_2).ofBuf (Val := Elt Ideal)
                      (constant (F := Ideal) S_ .f32 0x00000000#32)))))))))
      = select (cmpf (F := Ideal) (φ := .f32) .ogt D
            (broadcastInDim S100000 ![] bcast_S_S100000 (constant (F := Ideal) S_ .f32 0x00000000#32)))
          (Host.rsqrt (F := Ideal) (φ := .f32) D)
          (broadcastInDim S100000 ![] bcast_S_S100000 (id (constant (F := Ideal) S_ .f32 0x00000000#32))) := rfl

/-- The degree test of the reference's degree stage is the reference's inverse-square-root stage. -/
theorem dinv_of_deg (E : (⟨S2x6400000, .i32⟩ : BufTy).Contents (Elt Ideal)) :
    select (cmpf (F := Ideal) (φ := .f32) .ogt (Cert.ReferenceIdeal.ReadP.val_main_v10 (F := Ideal) E)
            (broadcastInDim S100000 ![] bcast_S_S100000 (constant (F := Ideal) S_ .f32 0x00000000#32)))
          (Host.rsqrt (F := Ideal) (φ := .f32) (Cert.ReferenceIdeal.ReadP.val_main_v10 (F := Ideal) E))
          (broadcastInDim S100000 ![] bcast_S_S100000 (id (constant (F := Ideal) S_ .f32 0x00000000#32)))
      = Cert.ReferenceIdeal.ReadP.val_main_v14 (F := Ideal) E := rfl

/-- The symmetric degree normalisation of every edge. -/
theorem entry0_norm (c : Dev nD) : W3 m ρ c (Proc.devRef .tc main_v29)
    = Cert.ReferenceIdeal.ReadP.val_main_v29 (F := Ideal) (m ((c.tc : Thread nD τ).loc main_arg1)) := by
  rw [entry0_norm_step m ρ c, entry0_dinv m ρ c, entry0_deg m ρ c, entry0_row m ρ c, entry0_col m ρ c,
    deg_of_col, dinv_views, dinv_of_deg]
  rfl

theorem entry0_arg0 (c : Dev nD) : W3 m ρ c (Proc.devRef .tc main_arg0) = m ((c.tc : Thread nD τ).loc main_arg0) := by
  read_prologue <;> rfl
theorem entry0_arg2 (c : Dev nD) : W3 m ρ c (Proc.devRef .tc main_arg2) = m ((c.tc : Thread nD τ).loc main_arg2) := by
  read_prologue <;> rfl
theorem entry0_arg3 (c : Dev nD) : W3 m ρ c (Proc.devRef .tc main_arg3) = m ((c.tc : Thread nD τ).loc main_arg3) := by
  read_prologue <;> rfl
theorem entry0_arg4 (c : Dev nD) : W3 m ρ c (Proc.devRef .tc main_arg4) = m ((c.tc : Thread nD τ).loc main_arg4) := by
  read_prologue <;> rfl
theorem entry0_arg5 (c : Dev nD) : W3 m ρ c (Proc.devRef .tc main_arg5) = m ((c.tc : Thread nD τ).loc main_arg5) := by
  read_prologue <;> rfl
theorem entry0_arg6 (c : Dev nD) : W3 m ρ c (Proc.devRef .tc main_arg6) = m ((c.tc : Thread nD τ).loc main_arg6) := by
  read_prologue <;> rfl
theorem entry0_arg7 (c : Dev nD) : W3 m ρ c (Proc.devRef .tc main_arg7) = m ((c.tc : Thread nD τ).loc main_arg7) := by
  read_prologue <;> rfl
theorem entry0_arg8 (c : Dev nD) : W3 m ρ c (Proc.devRef .tc main_arg8) = m ((c.tc : Thread nD τ).loc main_arg8) := by
  read_prologue <;> rfl
theorem entry0_arg9 (c : Dev nD) : W3 m ρ c (Proc.devRef .tc main_arg9) = m ((c.tc : Thread nD τ).loc main_arg9) := by
  read_prologue <;> rfl

/-! ## After the first region (what the second host stretch reads) -/

theorem exit0_row (c : Dev nD) : W4 m ρ c (Proc.devRef .tc main_v3)
    = Cert.ReferenceIdeal.ReadP.val_main_v3 (F := Ideal) (m ((c.tc : Thread nD τ).loc main_arg1)) := by
  walk_back; exact entry0_row m ρ c
theorem exit0_col (c : Dev nD) : W4 m ρ c (Proc.devRef .tc main_v6)
    = Cert.ReferenceIdeal.ReadP.val_main_v6 (F := Ideal) (m ((c.tc : Thread nD τ).loc main_arg1)) := by
  walk_back; exact entry0_col m ρ c
theorem exit0_norm (c : Dev nD) : W4 m ρ c (Proc.devRef .tc main_v29)
    = Cert.ReferenceIdeal.ReadP.val_main_v29 (F := Ideal) (m ((c.tc : Thread nD τ).loc main_arg1)) := by
  walk_back; exact entry0_norm m ρ c
theorem exit0_arg3 (c : Dev nD) : W4 m ρ c (Proc.devRef .tc main_arg3) = m ((c.tc : Thread nD τ).loc main_arg3) := by
  walk_back; exact entry0_arg3 m ρ c

/-- The weights of the second layer at the second region's entry. -/
theorem entry1_arg4 (c : Dev nD) : W5 m ρ c (Proc.devRef .tc main_arg4) = m ((c.tc : Thread nD τ).loc main_arg4) := by
  walk_back; exact entry0_arg4 m ρ c

/-! ## After the second region -/

theorem exit1_row (c : Dev nD) : W6 m ρ c (Proc.devRef .tc main_v3)
    = Cert.ReferenceIdeal.ReadP.val_main_v3 (F := Ideal) (m ((c.tc : Thread nD τ).loc main_arg1)) := by
  walk_back; exact entry0_row m ρ c
theorem exit1_col (c : Dev nD) : W6 m ρ c (Proc.devRef .tc main_v6)
    = Cert.ReferenceIdeal.ReadP.val_main_v6 (F := Ideal) (m ((c.tc : Thread nD τ).loc main_arg1)) := by
  walk_back; exact entry0_col m ρ c
theorem exit1_norm (c : Dev nD) : W6 m ρ c (Proc.devRef .tc main_v29)
    = Cert.ReferenceIdeal.ReadP.val_main_v29 (F := Ideal) (m ((c.tc : Thread nD τ).loc main_arg1)) := by
  walk_back; exact entry0_norm m ρ c
theorem exit1_arg5 (c : Dev nD) : W6 m ρ c (Proc.devRef .tc main_arg5) = m ((c.tc : Thread nD τ).loc main_arg5) := by
  walk_back; exact entry0_arg5 m ρ c

/-- The weights of the third layer at the third region's entry. -/
theorem entry2_arg6 (c : Dev nD) : W7 m ρ c (Proc.devRef .tc main_arg6) = m ((c.tc : Thread nD τ).loc main_arg6) := by
  walk_back; exact entry0_arg6 m ρ c

/-! ## After the third region -/

theorem exit2_row (c : Dev nD) : W8 m ρ c (Proc.devRef .tc main_v3)
    = Cert.ReferenceIdeal.ReadP.val_main_v3 (F := Ideal) (m ((c.tc : Thread nD τ).loc main_arg1)) := by
  walk_back; exact entry0_row m ρ c
theorem exit2_col (c : Dev nD) : W8 m ρ c (Proc.devRef .tc main_v6)
    = Cert.ReferenceIdeal.ReadP.val_main_v6 (F := Ideal) (m ((c.tc : Thread nD τ).loc main_arg1)) := by
  walk_back; exact entry0_col m ρ c
theorem exit2_norm (c : Dev nD) : W8 m ρ c (Proc.devRef .tc main_v29)
    = Cert.ReferenceIdeal.ReadP.val_main_v29 (F := Ideal) (m ((c.tc : Thread nD τ).loc main_arg1)) := by
  walk_back; exact entry0_norm m ρ c
theorem exit2_arg7 (c : Dev nD) : W8 m ρ c (Proc.devRef .tc main_arg7) = m ((c.tc : Thread nD τ).loc main_arg7) := by
  walk_back; exact entry0_arg7 m ρ c
theorem exit2_arg9 (c : Dev nD) : W8 m ρ c (Proc.devRef .tc main_arg9) = m ((c.tc : Thread nD τ).loc main_arg9) := by
  walk_back; exact entry0_arg9 m ρ c

/-- The classifier's weights at the last region's entry. -/
theorem entry3_arg8 (c : Dev nD) : W9 m ρ c (Proc.devRef .tc main_arg8) = m ((c.tc : Thread nD τ).loc main_arg8) := by
  walk_back; exact entry0_arg8 m ρ c

/-! ## The aggregations and the reshaped biases -/

/-- Between the first two regions the host aggregates the first region's output along the edges. -/
theorem host1_agg (c : Dev nD) : W5 m ρ c (Proc.devRef .tc main_v43)
    = aggregate4 (m ((c.tc : Thread nD τ).loc main_arg1)) (W4 m ρ c (Proc.devRef .tc main_v30)) := by
  dsimp only [W5, hostOps1]
  after_results_simp
  rw [exit0_row m ρ c, exit0_col m ρ c, exit0_norm m ρ c]
  rfl

/-- … and reshapes the first bias to one row. -/
theorem host1_bias (c : Dev nD) : W5 m ρ c (Proc.devRef .tc main_v44)
    = shapeCast S1x4 (m ((c.tc : Thread nD τ).loc main_arg3)) shapeCasts_S4_S1x4 := by
  dsimp only [W5, hostOps1]
  after_results_simp
  rw [exit0_arg3 m ρ c]
  rfl

theorem host2_agg (c : Dev nD) : W7 m ρ c (Proc.devRef .tc main_v58)
    = aggregate4 (m ((c.tc : Thread nD τ).loc main_arg1)) (W6 m ρ c (Proc.devRef .tc main_v45)) := by
  dsimp only [W7, hostOps2]
  after_results_simp
  rw [exit1_row m ρ c, exit1_col m ρ c, exit1_norm m ρ c]
  rfl

theorem host2_bias (c : Dev nD) : W7 m ρ c (Proc.devRef .tc main_v59)
    = shapeCast S1x4 (m ((c.tc : Thread nD τ).loc main_arg5)) shapeCasts_S4_S1x4 := by
  dsimp only [W7, hostOps2]
  after_results_simp
  rw [exit1_arg5 m ρ c]
  rfl

theorem host3_agg (c : Dev nD) : W9 m ρ c (Proc.devRef .tc main_v73)
    = aggregate2 (m ((c.tc : Thread nD τ).loc main_arg1)) (W8 m ρ c (Proc.devRef .tc main_v60)) := by
  dsimp only [W9, hostOps3]
  after_results_simp
  rw [exit2_row m ρ c, exit2_col m ρ c, exit2_norm m ρ c]
  rfl

theorem host3_bias (c : Dev nD) : W9 m ρ c (Proc.devRef .tc main_v74)
    = shapeCast S1x2 (m ((c.tc : Thread nD τ).loc main_arg7)) shapeCasts_S2_S1x2 := by
  dsimp only [W9, hostOps3]
  after_results_simp
  rw [exit2_arg7 m ρ c]
  rfl

theorem host3_cbias (c : Dev nD) : W9 m ρ c (Proc.devRef .tc main_v75)
    = shapeCast S1x4 (m ((c.tc : Thread nD τ).loc main_arg9)) shapeCasts_S4_S1x4 := by
  dsimp only [W9, hostOps3]
  after_results_simp
  rw [exit2_arg9 m ρ c]
  rfl

end Cert.KernelIdeal.Hand

end
-- ==== Proof.Region0.lean ====
/-
  The first kernel region: a dense layer, ten row blocks of 10000 nodes each. At a grid point the body loads a block
  of 10000 rows of the node features and the whole 128 × 4 weight matrix, multiplies them into a zero accumulator and
  stores the 10000 × 4 product. Here: the product at an entry is a sum over the 128 contracted columns; the block a
  point writes back is rows 10000·t … 10000·t + 9999 of ONE whole-array function, the dense layer of the region's two
  input arrays; the ten blocks cover the output array; so the output array ends as that dense layer.
  Stated for any contents `V` of the buffers at the region's entry.
-/
import proofs.«104388_j25469156065531_1_alg».proof.Proof.Gen.KernelIdeal.Frame
import proofs.«104388_j25469156065531_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open GraphConv

variable (V : (c : Dev nD) → (b : Ref sig .tc) → Buf (Elt Ideal) ((c : Thread nD τ).loc b))

theorem zero_offsets : (![0, 0] : Fin 2 → Nat) = fun _ => 0 := funext fun a => by fin_cases a <;> rfl

/-- The left operand's row coordinate at an output entry is the entry's row. -/
theorem dot0_lhs_row (i : S10000x4.Idx) (q : dot_S10000x128_S128x4_S10000x4_1_0_0_1_n_n.contr.Idx) :
    (dot_S10000x128_S128x4_S10000x4_1_0_0_1_n_n.lhsIdx i q 0).val = (i 0).val := by
  unfold DotDims.lhsIdx
  rw [dif_neg (show ¬(0 : Fin S10000x128.rank) ∈ dot_S10000x128_S128x4_S10000x4_1_0_0_1_n_n.lhsBatch by decide), dif_pos (show (0 : Fin S10000x128.rank) ∈ dot_S10000x128_S128x4_S10000x4_1_0_0_1_n_n.lhsNonContracting by decide)]
  rfl

/-- The right operand's column coordinate at an output entry is the entry's column. -/
theorem dot0_rhs_col (i : S10000x4.Idx) (q : dot_S10000x128_S128x4_S10000x4_1_0_0_1_n_n.contr.Idx) :
    (dot_S10000x128_S128x4_S10000x4_1_0_0_1_n_n.rhsIdx i q 1).val = (i 1).val := by
  unfold DotDims.rhsIdx
  rw [dif_neg (show ¬(1 : Fin S128x4.rank) ∈ dot_S10000x128_S128x4_S10000x4_1_0_0_1_n_n.rhsBatch by decide), dif_pos (show (1 : Fin S128x4.rank) ∈ dot_S10000x128_S128x4_S10000x4_1_0_0_1_n_n.rhsNonContracting by decide)]
  rfl

/-- The body's product at row p, column q of the block: the sum over the 128 contracted columns (the change of float
    format before the product is the identity on the extended reals, the accumulator is zero). -/
theorem product0_apply (x0 : Vec Ideal S10000x128 .f32) (x1 : Vec Ideal S128x4 .f32) (p : Fin 10000) (q : Fin 4) :
    k0_pay1 x0 x1 (ix2 p q) = ∑ k : Fin 128, x0 (ix2 p k) * x1 (ix2 k q) := by
  unfold k0_pay1
  refine (Ideal.matmul_constant_zero_apply dot_S10000x128_S128x4_S10000x4_1_0_0_1_n_n none _ _ (ix2 p q)).trans ?_
  rw [← Equiv.sum_comp (contrEquiv1 dot_S10000x128_S128x4_S10000x4_1_0_0_1_n_n 128 rfl rfl).symm]
  refine Finset.sum_congr rfl fun k _ => ?_
  have hk := contrEquiv1_symm_val dot_S10000x128_S128x4_S10000x4_1_0_0_1_n_n 128 rfl rfl k
  have el : dot_S10000x128_S128x4_S10000x4_1_0_0_1_n_n.lhsIdx (ix2 p q) ((contrEquiv1 dot_S10000x128_S128x4_S10000x4_1_0_0_1_n_n 128 rfl rfl).symm k) = ix2 p k :=
    funext fun a => Fin.ext (by
      match a with
      | ⟨0, _⟩ => exact dot0_lhs_row _ _
      | ⟨1, _⟩ => exact (dot_S10000x128_S128x4_S10000x4_1_0_0_1_n_n.lhsIdx_val_of_single rfl _ _).trans hk)
  have er : dot_S10000x128_S128x4_S10000x4_1_0_0_1_n_n.rhsIdx (ix2 p q) ((contrEquiv1 dot_S10000x128_S128x4_S10000x4_1_0_0_1_n_n 128 rfl rfl).symm k) = ix2 k q :=
    funext fun a => Fin.ext (by
      match a with
      | ⟨0, _⟩ => exact (dot_S10000x128_S128x4_S10000x4_1_0_0_1_n_n.rhsIdx_val_of_single rfl _ _).trans hk
      | ⟨1, _⟩ => exact dot0_rhs_col _ _)
  rw [el, er]
  rfl

/-- The printed index maps over the ten grid points: the feature block and the output block move together along the
    rows, the weight block stays, and no block index exceeds 9. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the output is some grid point's. -/
theorem blocks0_onto : ∀ q0 : Fin 10, ∃ t : Fin cfg0.N, win0_2.index t (0 : Fin 2) = q0.val :=
  (by decide +kernel : ∀ q0 : Fin 10, ∃ t : Fin grid0.N, win0_2.index t (0 : Fin 2) = q0.val)

/-- What grid point `t` writes back is block `t` of the dense layer of the two input arrays as the region finds them. -/
theorem flushed0 (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x4) zero_offsets]
  obtain ⟨e0, e1, e2, e3, e4, e5⟩ := blocks0 t
  funext j
  obtain ⟨p, q, rfl⟩ : ∃ (p : Fin 10000) (q : Fin 4), j = ix2 p q := ⟨j 0, j 1, eq_ix2 j⟩
  refine (product0_apply (iblk0 V c 0 t) (iblk0 V c 1 t) p q).trans ?_
  show _ = dense (V c main_arg0) (V c main_arg2) (((cfg0.win 2).blk t).view.emb (ix2 p q))
  unfold dense
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; rw [e0]
    | ⟨1, _⟩ => show win0_0.index t (1 : Fin 2) * 128 + 1 * k.val = k.val; rw [e1]; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; rw [e2]; omega
    | ⟨1, _⟩ => show win0_1.index t (1 : Fin 2) * 4 + 1 * q.val = win0_2.index t (1 : Fin 2) * 4 + 1 * q.val; rw [e3, e4]
  refine mul_congr ?_ ?_
  · exact congrArg (V c main_arg0) h0
  · exact congrArg (V c main_arg2) h1

/-- An index of the output array is in point `t`'s block iff each coordinate is in the block's range on its axis. -/
theorem mem_block0 (t : Fin cfg0.N) (i : S100000x4.Idx) :
    i ∈ ((cfg0.win 2).blk t).view.set ↔ ∀ a : Fin 2, win0_2.index t a * S10000x4.size a ≤ (i a).val ∧ (i a).val < win0_2.index t a * S10000x4.size a + S10000x4.size a := by
  show i ∈ ((View.whole main_v30).slice (win0_2.rect t)).set ↔ _
  rw [View.set_slice_whole, Rect.mem_set_unit]
  exact Iff.rfl

/-- The ten blocks cover the output array: row r lies in the block of the point whose block index is r / 10000. -/
theorem cover0 (i : S100000x4.Idx) :
    ∃ t : Fin cfg0.N, (cfg0.win 2).flush t = true ∧ i ∈ ((cfg0.win 2).blk t).view.set := by
  have hi0 : (i 0).val < 100000 := (i 0).isLt
  have hi1 : (i 1).val < 4 := (i 1).isLt
  obtain ⟨t, ht⟩ := blocks0_onto ⟨(i 0).val / 10000, by omega⟩
  obtain ⟨e0, e1, e2, e3, e4, e5⟩ := blocks0 t
  have ht' : win0_2.index t (0 : Fin 2) = (i 0).val / 10000 := ht
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 4 ≤ (i 1).val ∧ (i 1).val < win0_2.index t (1 : Fin 2) * 4 + 4; omega

/-- After the region its output array is the dense layer of its two input arrays as the region finds them. -/
theorem region0_out (c : Dev nD) :
    (dat0 V c).arrAt 2 cfg0.N = dense (V c main_arg0) (V c main_arg2) :=
  (dat0 V c).arrAt_eq_of_cover 2 (dense (V c main_arg0) (V c main_arg2)) (fun t _ => flushed0 V c t) cover0

end Cert.KernelIdeal.Hand

end
-- ==== Proof.Region1.lean ====
/-
  The second kernel region: bias, rectifier and a dense layer, ten row blocks of 10000 nodes each. At a grid point the
  body loads a block of 10000 rows of the aggregated table, the 1 × 4 bias row and the whole 4 × 4 weight matrix; it adds
  the bias to every row, takes the positive part, multiplies by the weights into a zero accumulator and stores the
  10000 × 4 product. Here: the product at an entry is the sum over the 4 contracted columns of max(a(p, k) + b(0, k), 0) ·
  w(k, q); the block a point writes back is rows 10000·t … 10000·t + 9999 of ONE whole-array function of the region's three
  input arrays; the ten blocks cover the output array; so the output array ends as that function.
  Stated for any contents `V` of the buffers at the region's entry.
-/
import proofs.«104388_j25469156065531_1_alg».proof.Proof.Gen.KernelIdeal.Frame
import proofs.«104388_j25469156065531_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open GraphConv

variable (V : (c : Dev nD) → (b : Ref sig .tc) → Buf (Elt Ideal) ((c : Thread nD τ).loc b))

theorem zero_offsets1 : (![0, 0] : Fin 2 → Nat) = fun _ => 0 := funext fun a => by fin_cases a <;> rfl

/-- The left operand's row coordinate at an output entry is the entry's row. -/
theorem dot1_lhs_row (i : S10000x4.Idx) (q : dot_S10000x4_S4x4_S10000x4_1_0_0_1_n_n.contr.Idx) :
    (dot_S10000x4_S4x4_S10000x4_1_0_0_1_n_n.lhsIdx i q 0).val = (i 0).val := by
  unfold DotDims.lhsIdx
  rw [dif_neg (show ¬(0 : Fin S10000x4.rank) ∈ dot_S10000x4_S4x4_S10000x4_1_0_0_1_n_n.lhsBatch by decide), dif_pos (show (0 : Fin S10000x4.rank) ∈ dot_S10000x4_S4x4_S10000x4_1_0_0_1_n_n.lhsNonContracting by decide)]
  rfl

/-- The right operand's column coordinate at an output entry is the entry's column. -/
theorem dot1_rhs_col (i : S10000x4.Idx) (q : dot_S10000x4_S4x4_S10000x4_1_0_0_1_n_n.contr.Idx) :
    (dot_S10000x4_S4x4_S10000x4_1_0_0_1_n_n.rhsIdx i q 1).val = (i 1).val := by
  unfold DotDims.rhsIdx
  rw [dif_neg (show ¬(1 : Fin S4x4.rank) ∈ dot_S10000x4_S4x4_S10000x4_1_0_0_1_n_n.rhsBatch by decide), dif_pos (show (1 : Fin S4x4.rank) ∈ dot_S10000x4_S4x4_S10000x4_1_0_0_1_n_n.rhsNonContracting by decide)]
  rfl

/-- The bias row broadcast over the 10000 rows, read at row p, column k, is the bias row's entry k. -/
theorem bias_row1 (x1 : Vec Ideal S1x4 .f32) (p : Fin 10000) (k : Fin 4) :
    broadcastTo S10000x4 x1 broadcasts_S1x4_S10000x4 (ix2 p k) = x1 (ix2 (0 : Fin 1) k) :=
  broadcastTo_apply x1 broadcasts_S1x4_S10000x4 (ix2 p k) (ix2 (0 : Fin 1) k) (fun a => by
    match a with
    | ⟨0, _⟩ => show (0 : Nat) = if (1 : Nat) = 1 then 0 else _; rw [if_pos rfl]
    | ⟨1, _⟩ => show k.val = if (4 : Nat) = 1 then 0 else k.val; rw [if_neg (by decide)])

/-- The body's product at row p, column q of the block: the sum over the 4 contracted columns of the rectified,
    biased entry times the weight (the shape casts and the changes of float format are identities). -/
theorem product1_apply (x0 : Vec Ideal S10000x4 .f32) (x1 : Vec Ideal S1x4 .f32) (x2 : Vec Ideal S4x4 .f32) (p : Fin 10000) (q : Fin 4) :
    k1_pay1 x0 x1 x2 (ix2 p q)
      = ∑ k : Fin 4, max (x0 (ix2 p k) + x1 (ix2 (0 : Fin 1) k)) (Ideal.ofBits .f32 0x00000000#32) * x2 (ix2 k q) := by
  unfold k1_pay1
  refine (Ideal.matmul_constant_zero_apply dot_S10000x4_S4x4_S10000x4_1_0_0_1_n_n none _ _ (ix2 p q)).trans ?_
  rw [← Equiv.sum_comp (contrEquiv1 dot_S10000x4_S4x4_S10000x4_1_0_0_1_n_n 4 rfl rfl).symm]
  refine Finset.sum_congr rfl fun k _ => ?_
  have hk := contrEquiv1_symm_val dot_S10000x4_S4x4_S10000x4_1_0_0_1_n_n 4 rfl rfl k
  have el : dot_S10000x4_S4x4_S10000x4_1_0_0_1_n_n.lhsIdx (ix2 p q) ((contrEquiv1 dot_S10000x4_S4x4_S10000x4_1_0_0_1_n_n 4 rfl rfl).symm k) = ix2 p k :=
    funext fun a => Fin.ext (by
      match a with
      | ⟨0, _⟩ => exact dot1_lhs_row _ _
      | ⟨1, _⟩ => exact (dot_S10000x4_S4x4_S10000x4_1_0_0_1_n_n.lhsIdx_val_of_single rfl _ _).trans hk)
  have er : dot_S10000x4_S4x4_S10000x4_1_0_0_1_n_n.rhsIdx (ix2 p q) ((contrEquiv1 dot_S10000x4_S4x4_S10000x4_1_0_0_1_n_n 4 rfl rfl).symm k) = ix2 k q :=
    funext fun a => Fin.ext (by
      match a with
      | ⟨0, _⟩ => exact (dot_S10000x4_S4x4_S10000x4_1_0_0_1_n_n.rhsIdx_val_of_single rfl _ _).trans hk
      | ⟨1, _⟩ => exact dot1_rhs_col _ _)
  rw [el, er]
  refine mul_congr ?_ rfl
  show max ((shapeCast S10000x4 x0 shapeCasts_S10000x4_S10000x4) (ix2 p k) + (broadcastTo S10000x4 (shapeCast S1x4 x1 shapeCasts_S1x4_S1x4) broadcasts_S1x4_S10000x4) (ix2 p k)) (Ideal.ofBits .f32 0x00000000#32) = _
  rw [shapeCast_self, shapeCast_self, bias_row1]

/-- The printed index maps over the ten grid points: the aggregated block and the output block move together along
    the rows, the bias row and the weights stay, and no block index exceeds 9. -/
theorem blocks1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every one of the ten row blocks of the output is some grid point's. -/
theorem blocks1_onto : ∀ q0 : Fin 10, ∃ t : Fin cfg1.N, win1_3.index t (0 : Fin 2) = q0.val :=
  (by decide +kernel : ∀ q0 : Fin 10, ∃ t : Fin grid1.N, win1_3.index t (0 : Fin 2) = q0.val)

/-- What grid point `t` writes back is block `t` of the dense layer of the rectified, biased input table. -/
theorem flushed1 (c : Dev nD) (t : Fin cfg1.N) :
    (dat1 V c).flushed 3 t = ((cfg1.win 3).blk t).view.read (Elt Ideal)
      (dense (biasRelu (V c main_v43) (rowVec (V c main_v44))) (V c main_arg4)) := by
  show (cfg1.win 3).cut (grid1.coords t) ((dat1 V c).after 3 t) = _
  rw [after1_3]
  unfold out1_3
  rw [View.canon_unit_zero zero_offsets1]
  simp only [View.ld_unit_zero (S := S10000x4) zero_offsets1, View.ld_unit_zero (S := S1x4) zero_offsets1, View.ld_unit_zero (S := S4x4) zero_offsets1]
  obtain ⟨e0, e1, e2, e3, e4, e5, e6, e7⟩ := blocks1 t
  funext j
  obtain ⟨p, q, rfl⟩ : ∃ (p : Fin 10000) (q : Fin 4), j = ix2 p q := ⟨j 0, j 1, eq_ix2 j⟩
  refine (product1_apply (iblk1 V c 0 t) (iblk1 V c 1 t) (iblk1 V c 2 t) p q).trans ?_
  show _ = dense (biasRelu (V c main_v43) (rowVec (V c main_v44))) (V c main_arg4) (((cfg1.win 3).blk t).view.emb (ix2 p q))
  unfold dense
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 10000 + 1 * p.val = win1_3.index t (0 : Fin 2) * 10000 + 1 * p.val; rw [e0]
    | ⟨1, _⟩ => show win1_0.index t (1 : Fin 2) * 4 + 1 * k.val = k.val; rw [e1]; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; rw [e2]
    | ⟨1, _⟩ => show win1_1.index t (1 : Fin 2) * 4 + 1 * k.val = k.val; rw [e3]; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 4 + 1 * k.val = k.val; rw [e4]; omega
    | ⟨1, _⟩ => show win1_2.index t (1 : Fin 2) * 4 + 1 * q.val = win1_3.index t (1 : Fin 2) * 4 + 1 * q.val; rw [e5, e6]
  refine mul_congr (max_congr (add_congr ?_ ?_)) ?_
  · exact congrArg (V c main_v43) h0
  · exact congrArg (V c main_v44) h1
  · exact congrArg (V c main_arg4) h2

/-- An index of the output array is in point `t`'s block iff each coordinate is in the block's range on its axis. -/
theorem mem_block1 (t : Fin cfg1.N) (i : S100000x4.Idx) :
    i ∈ ((cfg1.win 3).blk t).view.set ↔ ∀ a : Fin 2, win1_3.index t a * S10000x4.size a ≤ (i a).val ∧ (i a).val < win1_3.index t a * S10000x4.size a + S10000x4.size a := by
  show i ∈ ((View.whole main_v45).slice (win1_3.rect t)).set ↔ _
  rw [View.set_slice_whole, Rect.mem_set_unit]
  exact Iff.rfl

/-- The ten blocks cover the output array: row r lies in the block of the point whose block index is r / 10000. -/
theorem cover1 (i : S100000x4.Idx) :
    ∃ t : Fin cfg1.N, (cfg1.win 3).flush t = true ∧ i ∈ ((cfg1.win 3).blk t).view.set := by
  have hi0 : (i 0).val < 100000 := (i 0).isLt
  have hi1 : (i 1).val < 4 := (i 1).isLt
  obtain ⟨t, ht⟩ := blocks1_onto ⟨(i 0).val / 10000, by omega⟩
  obtain ⟨e0, e1, e2, e3, e4, e5, e6, e7⟩ := blocks1 t
  have ht' : win1_3.index t (0 : Fin 2) = (i 0).val / 10000 := ht
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 4 ≤ (i 1).val ∧ (i 1).val < win1_3.index t (1 : Fin 2) * 4 + 4; omega

/-- After the region its output array is the dense layer of the rectified, biased input table. -/
theorem region1_out (c : Dev nD) :
    (dat1 V c).arrAt 3 cfg1.N = dense (biasRelu (V c main_v43) (rowVec (V c main_v44))) (V c main_arg4) :=
  (dat1 V c).arrAt_eq_of_cover 3 (dense (biasRelu (V c main_v43) (rowVec (V c main_v44))) (V c main_arg4))
    (fun t _ => flushed1 V c t) cover1

end Cert.KernelIdeal.Hand

end
-- ==== Proof.Region2.lean ====
/-
  The third kernel region: bias, rectifier and a dense layer, ten row blocks of 10000 nodes each. At a grid point the
  body loads a block of 10000 rows of the aggregated table, the 1 × 4 bias row and the whole 4 × 2 weight matrix; it adds
  the bias to every row, takes the positive part, multiplies by the weights into a zero accumulator and stores the
  10000 × 2 product. Here: the product at an entry is the sum over the 4 contracted columns of max(a(p, k) + b(0, k), 0) ·
  w(k, q); the block a point writes back is rows 10000·t … 10000·t + 9999 of ONE whole-array function of the region's three
  input arrays; the ten blocks cover the output array; so the output array ends as that function.
  Stated for any contents `V` of the buffers at the region's entry.
-/
import proofs.«104388_j25469156065531_1_alg».proof.Proof.Gen.KernelIdeal.Frame
import proofs.«104388_j25469156065531_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open GraphConv

variable (V : (c : Dev nD) → (b : Ref sig .tc) → Buf (Elt Ideal) ((c : Thread nD τ).loc b))

theorem zero_offsets2 : (![0, 0] : Fin 2 → Nat) = fun _ => 0 := funext fun a => by fin_cases a <;> rfl

/-- The left operand's row coordinate at an output entry is the entry's row. -/
theorem dot2_lhs_row (i : S10000x2.Idx) (q : dot_S10000x4_S4x2_S10000x2_1_0_0_1_n_n.contr.Idx) :
    (dot_S10000x4_S4x2_S10000x2_1_0_0_1_n_n.lhsIdx i q 0).val = (i 0).val := by
  unfold DotDims.lhsIdx
  rw [dif_neg (show ¬(0 : Fin S10000x4.rank) ∈ dot_S10000x4_S4x2_S10000x2_1_0_0_1_n_n.lhsBatch by decide), dif_pos (show (0 : Fin S10000x4.rank) ∈ dot_S10000x4_S4x2_S10000x2_1_0_0_1_n_n.lhsNonContracting by decide)]
  rfl

/-- The right operand's column coordinate at an output entry is the entry's column. -/
theorem dot2_rhs_col (i : S10000x2.Idx) (q : dot_S10000x4_S4x2_S10000x2_1_0_0_1_n_n.contr.Idx) :
    (dot_S10000x4_S4x2_S10000x2_1_0_0_1_n_n.rhsIdx i q 1).val = (i 1).val := by
  unfold DotDims.rhsIdx
  rw [dif_neg (show ¬(1 : Fin S4x2.rank) ∈ dot_S10000x4_S4x2_S10000x2_1_0_0_1_n_n.rhsBatch by decide), dif_pos (show (1 : Fin S4x2.rank) ∈ dot_S10000x4_S4x2_S10000x2_1_0_0_1_n_n.rhsNonContracting by decide)]
  rfl

/-- The bias row broadcast over the 10000 rows, read at row p, column k, is the bias row's entry k. -/
theorem bias_row2 (x1 : Vec Ideal S1x4 .f32) (p : Fin 10000) (k : Fin 4) :
    broadcastTo S10000x4 x1 broadcasts_S1x4_S10000x4 (ix2 p k) = x1 (ix2 (0 : Fin 1) k) :=
  broadcastTo_apply x1 broadcasts_S1x4_S10000x4 (ix2 p k) (ix2 (0 : Fin 1) k) (fun a => by
    match a with
    | ⟨0, _⟩ => show (0 : Nat) = if (1 : Nat) = 1 then 0 else _; rw [if_pos rfl]
    | ⟨1, _⟩ => show k.val = if (4 : Nat) = 1 then 0 else k.val; rw [if_neg (by decide)])

/-- The body's product at row p, column q of the block: the sum over the 4 contracted columns of the rectified,
    biased entry times the weight (the shape casts and the changes of float format are identities). -/
theorem product2_apply (x0 : Vec Ideal S10000x4 .f32) (x1 : Vec Ideal S1x4 .f32) (x2 : Vec Ideal S4x2 .f32) (p : Fin 10000) (q : Fin 2) :
    k2_pay1 x0 x1 x2 (ix2 p q)
      = ∑ k : Fin 4, max (x0 (ix2 p k) + x1 (ix2 (0 : Fin 1) k)) (Ideal.ofBits .f32 0x00000000#32) * x2 (ix2 k q) := by
  unfold k2_pay1
  refine (Ideal.matmul_constant_zero_apply dot_S10000x4_S4x2_S10000x2_1_0_0_1_n_n none _ _ (ix2 p q)).trans ?_
  rw [← Equiv.sum_comp (contrEquiv1 dot_S10000x4_S4x2_S10000x2_1_0_0_1_n_n 4 rfl rfl).symm]
  refine Finset.sum_congr rfl fun k _ => ?_
  have hk := contrEquiv1_symm_val dot_S10000x4_S4x2_S10000x2_1_0_0_1_n_n 4 rfl rfl k
  have el : dot_S10000x4_S4x2_S10000x2_1_0_0_1_n_n.lhsIdx (ix2 p q) ((contrEquiv1 dot_S10000x4_S4x2_S10000x2_1_0_0_1_n_n 4 rfl rfl).symm k) = ix2 p k :=
    funext fun a => Fin.ext (by
      match a with
      | ⟨0, _⟩ => exact dot2_lhs_row _ _
      | ⟨1, _⟩ => exact (dot_S10000x4_S4x2_S10000x2_1_0_0_1_n_n.lhsIdx_val_of_single rfl _ _).trans hk)
  have er : dot_S10000x4_S4x2_S10000x2_1_0_0_1_n_n.rhsIdx (ix2 p q) ((contrEquiv1 dot_S10000x4_S4x2_S10000x2_1_0_0_1_n_n 4 rfl rfl).symm k) = ix2 k q :=
    funext fun a => Fin.ext (by
      match a with
      | ⟨0, _⟩ => exact (dot_S10000x4_S4x2_S10000x2_1_0_0_1_n_n.rhsIdx_val_of_single rfl _ _).trans hk
      | ⟨1, _⟩ => exact dot2_rhs_col _ _)
  rw [el, er]
  refine mul_congr ?_ rfl
  show max ((shapeCast S10000x4 x0 shapeCasts_S10000x4_S10000x4) (ix2 p k) + (broadcastTo S10000x4 (shapeCast S1x4 x1 shapeCasts_S1x4_S1x4) broadcasts_S1x4_S10000x4) (ix2 p k)) (Ideal.ofBits .f32 0x00000000#32) = _
  rw [shapeCast_self, shapeCast_self, bias_row2]

/-- The printed index maps over the ten grid points: the aggregated block and the output block move together along
    the rows, the bias row and the weights stay, and no block index exceeds 9. -/
theorem blocks2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 9 :=
  (by decide +kernel : ∀ t : Fin grid2.N, _)

/-- Every one of the ten row blocks of the output is some grid point's. -/
theorem blocks2_onto : ∀ q0 : Fin 10, ∃ t : Fin cfg2.N, win2_3.index t (0 : Fin 2) = q0.val :=
  (by decide +kernel : ∀ q0 : Fin 10, ∃ t : Fin grid2.N, win2_3.index t (0 : Fin 2) = q0.val)

/-- What grid point `t` writes back is block `t` of the dense layer of the rectified, biased input table. -/
theorem flushed2 (c : Dev nD) (t : Fin cfg2.N) :
    (dat2 V c).flushed 3 t = ((cfg2.win 3).blk t).view.read (Elt Ideal)
      (dense (biasRelu (V c main_v58) (rowVec (V c main_v59))) (V c main_arg6)) := by
  show (cfg2.win 3).cut (grid2.coords t) ((dat2 V c).after 3 t) = _
  rw [after2_3]
  unfold out2_3
  rw [View.canon_unit_zero zero_offsets2]
  simp only [View.ld_unit_zero (S := S10000x4) zero_offsets2, View.ld_unit_zero (S := S1x4) zero_offsets2, View.ld_unit_zero (S := S4x2) zero_offsets2]
  obtain ⟨e0, e1, e2, e3, e4, e5, e6, e7⟩ := blocks2 t
  funext j
  obtain ⟨p, q, rfl⟩ : ∃ (p : Fin 10000) (q : Fin 2), j = ix2 p q := ⟨j 0, j 1, eq_ix2 j⟩
  refine (product2_apply (iblk2 V c 0 t) (iblk2 V c 1 t) (iblk2 V c 2 t) p q).trans ?_
  show _ = dense (biasRelu (V c main_v58) (rowVec (V c main_v59))) (V c main_arg6) (((cfg2.win 3).blk t).view.emb (ix2 p q))
  unfold dense
  refine Finset.sum_congr rfl fun k _ => ?_
  have h0 : ((cfg2.win 0).blk t).view.emb (ix2 p k) = ix2 ((((cfg2.win 3).blk t).view.emb (ix2 p q)) 0) k := by
    funext a; apply Fin.ext
    match a with
    | ⟨0, _⟩ => show win2_0.index t (0 : Fin 2) * 10000 + 1 * p.val = win2_3.index t (0 : Fin 2) * 10000 + 1 * p.val; rw [e0]
    | ⟨1, _⟩ => show win2_0.index t (1 : Fin 2) * 4 + 1 * k.val = k.val; rw [e1]; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; rw [e2]
    | ⟨1, _⟩ => show win2_1.index t (1 : Fin 2) * 4 + 1 * k.val = k.val; rw [e3]; omega
  have h2 : ((cfg2.win 2).blk t).view.emb (ix2 k q) = ix2 k ((((cfg2.win 3).blk t).view.emb (ix2 p q)) 1) := by
    funext a; apply Fin.ext
    match a with
    | ⟨0, _⟩ => show win2_2.index t (0 : Fin 2) * 4 + 1 * k.val = k.val; rw [e4]; omega
    | ⟨1, _⟩ => show win2_2.index t (1 : Fin 2) * 2 + 1 * q.val = win2_3.index t (1 : Fin 2) * 2 + 1 * q.val; rw [e5, e6]
  refine mul_congr (max_congr (add_congr ?_ ?_)) ?_
  · exact congrArg (V c main_v58) h0
  · exact congrArg (V c main_v59) h1
  · exact congrArg (V c main_arg6) h2

/-- An index of the output array is in point `t`'s block iff each coordinate is in the block's range on its axis. -/
theorem mem_block2 (t : Fin cfg2.N) (i : S100000x2.Idx) :
    i ∈ ((cfg2.win 3).blk t).view.set ↔ ∀ a : Fin 2, win2_3.index t a * S10000x2.size a ≤ (i a).val ∧ (i a).val < win2_3.index t a * S10000x2.size a + S10000x2.size a := by
  show i ∈ ((View.whole main_v60).slice (win2_3.rect t)).set ↔ _
  rw [View.set_slice_whole, Rect.mem_set_unit]
  exact Iff.rfl

/-- The ten blocks cover the output array: row r lies in the block of the point whose block index is r / 10000. -/
theorem cover2 (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  obtain ⟨t, ht⟩ := blocks2_onto ⟨(i 0).val / 10000, by omega⟩
  obtain ⟨e0, e1, e2, e3, e4, e5, e6, e7⟩ := blocks2 t
  have ht' : win2_3.index t (0 : Fin 2) = (i 0).val / 10000 := ht
  refine ⟨t, flush2_3 t, ?_⟩
  rw [mem_block2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 2 ≤ (i 1).val ∧ (i 1).val < win2_3.index t (1 : Fin 2) * 2 + 2; omega

/-- After the region its output array is the dense layer of the rectified, biased input table. -/
theorem region2_out (c : Dev nD) :
    (dat2 V c).arrAt 3 cfg2.N = dense (biasRelu (V c main_v58) (rowVec (V c main_v59))) (V c main_arg6) :=
  (dat2 V c).arrAt_eq_of_cover 3 (dense (biasRelu (V c main_v58) (rowVec (V c main_v59))) (V c main_arg6))
    (fun t _ => flushed2 V c t) cover2

end Cert.KernelIdeal.Hand

end
-- ==== Proof.Region3.lean ====
/-
  The last kernel region: bias and rectifier, stored as the second result, then the classifier — a dense layer and its
  bias — stored as the first result; ten row blocks of 10000 nodes each. At a grid point the body loads a block of 10000
  rows of the aggregated 2-column table, the 1 × 2 bias row, the 2 × 4 classifier weights and the 1 × 4 classifier bias.
  Here: the rectified entry is max(a(p, k) + b(0, k), 0); the logit at an entry is the sum over the 2 contracted columns of
  the rectified entries times the weights, plus the classifier bias of the column; each of the two blocks a point writes
  back is rows 10000·t … 10000·t + 9999 of one whole-array function of the region's input arrays; the ten blocks cover each
  output array; so the two output arrays end as those functions.
  Stated for any contents `V` of the buffers at the region's entry.
-/
import proofs.«104388_j25469156065531_1_alg».proof.Proof.Gen.KernelIdeal.Frame
import proofs.«104388_j25469156065531_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open GraphConv

variable (V : (c : Dev nD) → (b : Ref sig .tc) → Buf (Elt Ideal) ((c : Thread nD τ).loc b))

theorem zero_offsets3 : (![0, 0] : Fin 2 → Nat) = fun _ => 0 := funext fun a => by fin_cases a <;> rfl

/-- The left operand's row coordinate at an output entry is the entry's row. -/
theorem dot3_lhs_row (i : S10000x4.Idx) (q : dot_S10000x2_S2x4_S10000x4_1_0_0_1_n_n.contr.Idx) :
    (dot_S10000x2_S2x4_S10000x4_1_0_0_1_n_n.lhsIdx i q 0).val = (i 0).val := by
  unfold DotDims.lhsIdx
  rw [dif_neg (show ¬(0 : Fin S10000x2.rank) ∈ dot_S10000x2_S2x4_S10000x4_1_0_0_1_n_n.lhsBatch by decide), dif_pos (show (0 : Fin S10000x2.rank) ∈ dot_S10000x2_S2x4_S10000x4_1_0_0_1_n_n.lhsNonContracting by decide)]
  rfl

/-- The right operand's column coordinate at an output entry is the entry's column. -/
theorem dot3_rhs_col (i : S10000x4.Idx) (q : dot_S10000x2_S2x4_S10000x4_1_0_0_1_n_n.contr.Idx) :
    (dot_S10000x2_S2x4_S10000x4_1_0_0_1_n_n.rhsIdx i q 1).val = (i 1).val := by
  unfold DotDims.rhsIdx
  rw [dif_neg (show ¬(1 : Fin S2x4.rank) ∈ dot_S10000x2_S2x4_S10000x4_1_0_0_1_n_n.rhsBatch by decide), dif_pos (show (1 : Fin S2x4.rank) ∈ dot_S10000x2_S2x4_S10000x4_1_0_0_1_n_n.rhsNonContracting by decide)]
  rfl

/-- The 1 × 2 bias row broadcast over the 10000 rows, read at row p, column k, is the bias row's entry k. -/
theorem bias_row3 (x1 : Vec Ideal S1x2 .f32) (p : Fin 10000) (k : Fin 2) :
    broadcastTo S10000x2 x1 broadcasts_S1x2_S10000x2 (ix2 p k) = x1 (ix2 (0 : Fin 1) k) :=
  broadcastTo_apply x1 broadcasts_S1x2_S10000x2 (ix2 p k) (ix2 (0 : Fin 1) k) (fun a => by
    match a with
    | ⟨0, _⟩ => show (0 : Nat) = if (1 : Nat) = 1 then 0 else _; rw [if_pos rfl]
    | ⟨1, _⟩ => show k.val = if (2 : Nat) = 1 then 0 else k.val; rw [if_neg (by decide)])

/-- The 1 × 4 classifier bias broadcast over the 10000 rows, read at row p, column q, is its entry q. -/
theorem cbias_row3 (x3 : Vec Ideal S1x4 .f32) (p : Fin 10000) (q : Fin 4) :
    broadcastTo S10000x4 x3 broadcasts_S1x4_S10000x4 (ix2 p q) = x3 (ix2 (0 : Fin 1) q) :=
  broadcastTo_apply x3 broadcasts_S1x4_S10000x4 (ix2 p q) (ix2 (0 : Fin 1) q) (fun a => by
    match a with
    | ⟨0, _⟩ => show (0 : Nat) = if (1 : Nat) = 1 then 0 else _; rw [if_pos rfl]
    | ⟨1, _⟩ => show q.val = if (4 : Nat) = 1 then 0 else q.val; rw [if_neg (by decide)])

/-- The rectified, biased entry at row p, column k of the block. -/
theorem rectified3_apply (x0 : Vec Ideal S10000x2 .f32) (x1 : Vec Ideal S1x2 .f32) (p : Fin 10000) (k : Fin 2) :
    k3_pay1 x0 x1 (ix2 p k) = max (x0 (ix2 p k) + x1 (ix2 (0 : Fin 1) k)) (Ideal.ofBits .f32 0x00000000#32) := by
  unfold k3_pay1
  show max ((shapeCast S10000x2 x0 shapeCasts_S10000x2_S10000x2) (ix2 p k) + (broadcastTo S10000x2 (shapeCast S1x2 x1 shapeCasts_S1x2_S1x2) broadcasts_S1x2_S10000x2) (ix2 p k)) (Ideal.ofBits .f32 0x00000000#32) = _
  rw [shapeCast_self, shapeCast_self, bias_row3]

/-- The logit at row p, column q of the block: the sum over the 2 contracted columns of the rectified entries times
    the classifier weights, plus the classifier bias of the column. -/
theorem logits3_apply (x0 : Vec Ideal S10000x2 .f32) (x1 : Vec Ideal S1x2 .f32) (x2 : Vec Ideal S2x4 .f32) (x3 : Vec Ideal S1x4 .f32)
    (p : Fin 10000) (q : Fin 4) :
    k3_pay2 x0 x1 x2 x3 (ix2 p q)
      = (∑ k : Fin 2, max (x0 (ix2 p k) + x1 (ix2 (0 : Fin 1) k)) (Ideal.ofBits .f32 0x00000000#32) * x2 (ix2 k q)) + x3 (ix2 (0 : Fin 1) q) := by
  unfold k3_pay2
  show (matmul dot_S10000x2_S2x4_S10000x4_1_0_0_1_n_n none (truncf .bf16 (k3_pay1 x0 x1) bitsLt_bf16_f32) (truncf .bf16 x2 bitsLt_bf16_f32) (constant S10000x4 .f32 0x00000000#32)) (ix2 p q)
      + (broadcastTo S10000x4 (shapeCast S1x4 x3 shapeCasts_S1x4_S1x4) broadcasts_S1x4_S10000x4) (ix2 p q) = _
  refine add_congr ?_ ?_
  · refine (Ideal.matmul_constant_zero_apply dot_S10000x2_S2x4_S10000x4_1_0_0_1_n_n none _ _ (ix2 p q)).trans ?_
    rw [← Equiv.sum_comp (contrEquiv1 dot_S10000x2_S2x4_S10000x4_1_0_0_1_n_n 2 rfl rfl).symm]
    refine Finset.sum_congr rfl fun k _ => ?_
    have hk := contrEquiv1_symm_val dot_S10000x2_S2x4_S10000x4_1_0_0_1_n_n 2 rfl rfl k
    have el : dot_S10000x2_S2x4_S10000x4_1_0_0_1_n_n.lhsIdx (ix2 p q) ((contrEquiv1 dot_S10000x2_S2x4_S10000x4_1_0_0_1_n_n 2 rfl rfl).symm k) = ix2 p k :=
      funext fun a => Fin.ext (by
        match a with
        | ⟨0, _⟩ => exact dot3_lhs_row _ _
        | ⟨1, _⟩ => exact (dot_S10000x2_S2x4_S10000x4_1_0_0_1_n_n.lhsIdx_val_of_single rfl _ _).trans hk)
    have er : dot_S10000x2_S2x4_S10000x4_1_0_0_1_n_n.rhsIdx (ix2 p q) ((contrEquiv1 dot_S10000x2_S2x4_S10000x4_1_0_0_1_n_n 2 rfl rfl).symm k) = ix2 k q :=
      funext fun a => Fin.ext (by
        match a with
        | ⟨0, _⟩ => exact (dot_S10000x2_S2x4_S10000x4_1_0_0_1_n_n.rhsIdx_val_of_single rfl _ _).trans hk
        | ⟨1, _⟩ => exact dot3_rhs_col _ _)
    rw [el, er]
    exact mul_congr (rectified3_apply x0 x1 p k) rfl
  · rw [shapeCast_self, cbias_row3]

/-- The printed index maps over the ten grid points: the aggregated block and both output blocks move together along
    the rows, the bias rows and the weights stay, and no block index exceeds 9. -/
theorem blocks3 : ∀ t : Fin cfg3.N, win3_0.index t (0 : Fin 2) = win3_5.index t (0 : Fin 2)
    ∧ win3_4.index t (0 : Fin 2) = win3_5.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0
    ∧ win3_5.index t (1 : Fin 2) = 0
    ∧ win3_5.index t (0 : Fin 2) ≤ 9 :=
  (by decide +kernel : ∀ t : Fin grid3.N, _)

/-- Every one of the ten row blocks is some grid point's. -/
theorem blocks3_onto : ∀ q0 : Fin 10, ∃ t : Fin cfg3.N, win3_5.index t (0 : Fin 2) = q0.val :=
  (by decide +kernel : ∀ q0 : Fin 10, ∃ t : Fin grid3.N, win3_5.index t (0 : Fin 2) = q0.val)

/-- What grid point `t` writes back to the second result is block `t` of the rectified, biased input table. -/
theorem flushed3_y (c : Dev nD) (t : Fin cfg3.N) :
    (dat3 V c).flushed 5 t = ((cfg3.win 5).blk t).view.read (Elt Ideal) (biasRelu (V c main_v73) (rowVec (V c main_v74))) := by
  show (cfg3.win 5).cut (grid3.coords t) ((dat3 V c).after 5 t) = _
  rw [after3_5]
  unfold out3_5
  rw [View.canon_unit_zero zero_offsets3]
  simp only [View.ld_unit_zero (S := S10000x2) zero_offsets3, View.ld_unit_zero (S := S1x2) zero_offsets3]
  obtain ⟨e0, e1, e2, e3, e4, e5, e6, e7, e8, e9, e10, e11⟩ := blocks3 t
  funext j
  obtain ⟨p, k, rfl⟩ : ∃ (p : Fin 10000) (k : Fin 2), j = ix2 p k := ⟨j 0, j 1, eq_ix2 j⟩
  refine (rectified3_apply (iblk3 V c 0 t) (iblk3 V c 1 t) p k).trans ?_
  show _ = biasRelu (V c main_v73) (rowVec (V c main_v74)) (((cfg3.win 5).blk t).view.emb (ix2 p k))
  have h0 : ((cfg3.win 0).blk t).view.emb (ix2 p k) = ((cfg3.win 5).blk t).view.emb (ix2 p k) := by
    funext a; apply Fin.ext
    match a with
    | ⟨0, _⟩ => show win3_0.index t (0 : Fin 2) * 10000 + 1 * p.val = win3_5.index t (0 : Fin 2) * 10000 + 1 * p.val; rw [e0]
    | ⟨1, _⟩ => show win3_0.index t (1 : Fin 2) * 2 + 1 * k.val = win3_5.index t (1 : Fin 2) * 2 + 1 * k.val; rw [e2, e10]
  have h1 : ((cfg3.win 1).blk t).view.emb (ix2 (0 : Fin 1) k) = ix2 (0 : Fin 1) ((((cfg3.win 5).blk t).view.emb (ix2 p k)) 1) := by
    funext a; apply Fin.ext
    match a with
    | ⟨0, _⟩ => show win3_1.index t (0 : Fin 2) * 1 + 1 * 0 = 0; rw [e3]
    | ⟨1, _⟩ => show win3_1.index t (1 : Fin 2) * 2 + 1 * k.val = win3_5.index t (1 : Fin 2) * 2 + 1 * k.val; rw [e4, e10]
  refine max_congr (add_congr ?_ ?_)
  · exact congrArg (V c main_v73) h0
  · exact congrArg (V c main_v74) h1

/-- What grid point `t` writes back to the first result is block `t` of the classifier applied to that table. -/
theorem flushed3_out (c : Dev nD) (t : Fin cfg3.N) :
    (dat3 V c).flushed 4 t = ((cfg3.win 4).blk t).view.read (Elt Ideal)
      (addBias (dense (biasRelu (V c main_v73) (rowVec (V c main_v74))) (V c main_arg8)) (rowVec (V c main_v75))) := by
  show (cfg3.win 4).cut (grid3.coords t) ((dat3 V c).after 4 t) = _
  rw [after3_4]
  unfold out3_4
  rw [View.canon_unit_zero zero_offsets3]
  simp only [View.ld_unit_zero (S := S10000x2) zero_offsets3, View.ld_unit_zero (S := S1x2) zero_offsets3, View.ld_unit_zero (S := S2x4) zero_offsets3, View.ld_unit_zero (S := S1x4) zero_offsets3]
  obtain ⟨e0, e1, e2, e3, e4, e5, e6, e7, e8, e9, e10, e11⟩ := blocks3 t
  funext j
  obtain ⟨p, q, rfl⟩ : ∃ (p : Fin 10000) (q : Fin 4), j = ix2 p q := ⟨j 0, j 1, eq_ix2 j⟩
  refine (logits3_apply (iblk3 V c 0 t) (iblk3 V c 1 t) (iblk3 V c 2 t) (iblk3 V c 3 t) p q).trans ?_
  show _ = addBias (dense (biasRelu (V c main_v73) (rowVec (V c main_v74))) (V c main_arg8)) (rowVec (V c main_v75)) (((cfg3.win 4).blk t).view.emb (ix2 p q))
  unfold addBias dense
  have h3 : ((cfg3.win 3).blk t).view.emb (ix2 (0 : Fin 1) q) = ix2 (0 : Fin 1) ((((cfg3.win 4).blk t).view.emb (ix2 p q)) 1) := by
    funext a; apply Fin.ext
    match a with
    | ⟨0, _⟩ => show win3_3.index t (0 : Fin 2) * 1 + 1 * 0 = 0; rw [e7]
    | ⟨1, _⟩ => show win3_3.index t (1 : Fin 2) * 4 + 1 * q.val = win3_4.index t (1 : Fin 2) * 4 + 1 * q.val; rw [e8, e9]
  refine add_congr (Finset.sum_congr rfl fun k _ => ?_) (congrArg (V c main_v75) h3)
  have h0 : ((cfg3.win 0).blk t).view.emb (ix2 p k) = ix2 ((((cfg3.win 4).blk t).view.emb (ix2 p q)) 0) k := by
    funext a; apply Fin.ext
    match a with
    | ⟨0, _⟩ => show win3_0.index t (0 : Fin 2) * 10000 + 1 * p.val = win3_4.index t (0 : Fin 2) * 10000 + 1 * p.val; rw [e0, e1]
    | ⟨1, _⟩ => show win3_0.index t (1 : Fin 2) * 2 + 1 * k.val = k.val; rw [e2]; omega
  have h1 : ((cfg3.win 1).blk t).view.emb (ix2 (0 : Fin 1) k) = ix2 (0 : Fin 1) k := by
    funext a; apply Fin.ext
    match a with
    | ⟨0, _⟩ => show win3_1.index t (0 : Fin 2) * 1 + 1 * 0 = 0; rw [e3]
    | ⟨1, _⟩ => show win3_1.index t (1 : Fin 2) * 2 + 1 * k.val = k.val; rw [e4]; omega
  have h2 : ((cfg3.win 2).blk t).view.emb (ix2 k q) = ix2 k ((((cfg3.win 4).blk t).view.emb (ix2 p q)) 1) := by
    funext a; apply Fin.ext
    match a with
    | ⟨0, _⟩ => show win3_2.index t (0 : Fin 2) * 2 + 1 * k.val = k.val; rw [e5]; omega
    | ⟨1, _⟩ => show win3_2.index t (1 : Fin 2) * 4 + 1 * q.val = win3_4.index t (1 : Fin 2) * 4 + 1 * q.val; rw [e6, e9]
  refine mul_congr (max_congr (add_congr ?_ ?_)) ?_
  · exact congrArg (V c main_v73) h0
  · exact congrArg (V c main_v74) h1
  · exact congrArg (V c main_arg8) h2

/-- An index of the second result is in point `t`'s block iff each coordinate is in the block's range on its axis. -/
theorem mem_block3_y (t : Fin cfg3.N) (i : S100000x2.Idx) :
    i ∈ ((cfg3.win 5).blk t).view.set ↔ ∀ a : Fin 2, win3_5.index t a * S10000x2.size a ≤ (i a).val ∧ (i a).val < win3_5.index t a * S10000x2.size a + S10000x2.size a := by
  show i ∈ ((View.whole main_v76_1).slice (win3_5.rect t)).set ↔ _
  rw [View.set_slice_whole, Rect.mem_set_unit]
  exact Iff.rfl

/-- The same for the first result. -/
theorem mem_block3_out (t : Fin cfg3.N) (i : S100000x4.Idx) :
    i ∈ ((cfg3.win 4).blk t).view.set ↔ ∀ a : Fin 2, win3_4.index t a * S10000x4.size a ≤ (i a).val ∧ (i a).val < win3_4.index t a * S10000x4.size a + S10000x4.size a := by
  show i ∈ ((View.whole main_v76_0).slice (win3_4.rect t)).set ↔ _
  rw [View.set_slice_whole, Rect.mem_set_unit]
  exact Iff.rfl

/-- The ten blocks cover the second result. -/
theorem cover3_y (i : S100000x2.Idx) :
    ∃ t : Fin cfg3.N, (cfg3.win 5).flush t = true ∧ i ∈ ((cfg3.win 5).blk t).view.set := by
  have hi0 : (i 0).val < 100000 := (i 0).isLt
  have hi1 : (i 1).val < 2 := (i 1).isLt
  obtain ⟨t, ht⟩ := blocks3_onto ⟨(i 0).val / 10000, by omega⟩
  obtain ⟨e0, e1, e2, e3, e4, e5, e6, e7, e8, e9, e10, e11⟩ := blocks3 t
  have ht' : win3_5.index t (0 : Fin 2) = (i 0).val / 10000 := ht
  refine ⟨t, flush3_5 t, ?_⟩
  rw [mem_block3_y]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 2 ≤ (i 1).val ∧ (i 1).val < win3_5.index t (1 : Fin 2) * 2 + 2; omega

/-- The ten blocks cover the first result. -/
theorem cover3_out (i : S100000x4.Idx) :
    ∃ t : Fin cfg3.N, (cfg3.win 4).flush t = true ∧ i ∈ ((cfg3.win 4).blk t).view.set := by
  have hi0 : (i 0).val < 100000 := (i 0).isLt
  have hi1 : (i 1).val < 4 := (i 1).isLt
  obtain ⟨t, ht⟩ := blocks3_onto ⟨(i 0).val / 10000, by omega⟩
  obtain ⟨e0, e1, e2, e3, e4, e5, e6, e7, e8, e9, e10, e11⟩ := blocks3 t
  have ht' : win3_5.index t (0 : Fin 2) = (i 0).val / 10000 := ht
  refine ⟨t, flush3_4 t, ?_⟩
  rw [mem_block3_out]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 4 ≤ (i 1).val ∧ (i 1).val < win3_4.index t (1 : Fin 2) * 4 + 4; omega

/-- After the region the second result is the rectified, biased input table. -/
theorem region3_y (c : Dev nD) :
    (dat3 V c).arrAt 5 cfg3.N = biasRelu (V c main_v73) (rowVec (V c main_v74)) :=
  (dat3 V c).arrAt_eq_of_cover 5 (biasRelu (V c main_v73) (rowVec (V c main_v74))) (fun t _ => flushed3_y V c t) cover3_y

/-- After the region the first result is the classifier applied to that table. -/
theorem region3_out (c : Dev nD) :
    (dat3 V c).arrAt 4 cfg3.N
      = addBias (dense (biasRelu (V c main_v73) (rowVec (V c main_v74))) (V c main_arg8)) (rowVec (V c main_v75)) :=
  (dat3 V c).arrAt_eq_of_cover 4 (addBias (dense (biasRelu (V c main_v73) (rowVec (V c main_v74))) (V c main_arg8)) (rowVec (V c main_v75)))
    (fun t _ => flushed3_out V c t) cover3_out

end Cert.KernelIdeal.Hand

end
-- ==== Proof.KernelValue.lean ====
/-
  The idealized kernel's two results as functions of its arguments. Boundary by boundary: the first region leaves the
  dense layer of the node features; the host aggregates it along the edges and reshapes the bias to one row; the second
  region adds the bias, rectifies and applies the second dense layer; and so on through the third region; the last region
  adds the third bias and rectifies — the second result — and applies the classifier — the first result. A bias reshaped
  to one row and read back as a vector is the bias. The composition is the reference's own (`refY3`), applied to this
  program's argument arrays.
-/
import proofs.«104388_j25469156065531_1_alg».proof.Proof.KernelRun
import proofs.«104388_j25469156065531_1_alg».proof.Proof.KernelHost
import proofs.«104388_j25469156065531_1_alg».proof.Proof.Region0
import proofs.«104388_j25469156065531_1_alg».proof.Proof.Region1
import proofs.«104388_j25469156065531_1_alg».proof.Proof.Region2
import proofs.«104388_j25469156065531_1_alg».proof.Proof.Region3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Cert.ReferenceIdeal.RefValue (aggregate4 aggregate2 refY3)
open GraphConv

variable (m : (ℓ : Loc nD τ sig) → Buf (Elt Ideal) ℓ) (ρ : Dev nD → PrngReg)

/-- A 4-vector reshaped to one row and read back along that row is the vector. -/
theorem rowVec_reshape4 (b : S4.Idx → EReal) : rowVec (shapeCast S1x4 b shapeCasts_S4_S1x4) = b := by
  funext k
  refine (shapeCast_addUnit_apply ![4] b shapeCasts_S4_S1x4 (ix2 (0 : Fin 1) (k 0))).trans (congrArg b ?_)
  funext a
  match a with
  | ⟨0, _⟩ => rfl

/-- A 2-vector reshaped to one row and read back along that row is the vector. -/
theorem rowVec_reshape2 (b : S2.Idx → EReal) : rowVec (shapeCast S1x2 b shapeCasts_S2_S1x2) = b := by
  funext k
  refine (shapeCast_addUnit_apply ![2] b shapeCasts_S2_S1x2 (ix2 (0 : Fin 1) (k 0))).trans (congrArg b ?_)
  funext a
  match a with
  | ⟨0, _⟩ => rfl

/-- After the first region: x · W1. -/
theorem value_xw1 (c : Dev nD) : W4 m ρ c (Proc.devRef .tc main_v30)
    = dense (m ((c.tc : Thread nD τ).loc main_arg0)) (m ((c.tc : Thread nD τ).loc main_arg2)) := by
  refine (W4_arr m ρ c 2).trans ((region0_out (V3 m ρ) c).trans ?_)
  show dense (W3 m ρ c (Proc.devRef .tc main_arg0)) (W3 m ρ c (Proc.devRef .tc main_arg2)) = _
  rw [entry0_arg0 m ρ c, entry0_arg2 m ρ c]

/-- After the second region: y1 · W2, with y1 the rectified, biased aggregation of x · W1. -/
theorem value_xw2 (c : Dev nD) : W6 m ρ c (Proc.devRef .tc main_v45)
    = dense (biasRelu (aggregate4 (m ((c.tc : Thread nD τ).loc main_arg1))
          (dense (m ((c.tc : Thread nD τ).loc main_arg0)) (m ((c.tc : Thread nD τ).loc main_arg2))))
        (m ((c.tc : Thread nD τ).loc main_arg3))) (m ((c.tc : Thread nD τ).loc main_arg4)) := by
  refine (W6_arr m ρ c 3).trans ((region1_out (V5 m ρ) c).trans ?_)
  show dense (biasRelu (W5 m ρ c (Proc.devRef .tc main_v43)) (rowVec (W5 m ρ c (Proc.devRef .tc main_v44)))) (W5 m ρ c (Proc.devRef .tc main_arg4)) = _
  rw [host1_agg m ρ c, host1_bias m ρ c, entry1_arg4 m ρ c, value_xw1 m ρ c, rowVec_reshape4]

/-- After the third region: y2 · W3. -/
theorem value_xw3 (c : Dev nD) : W8 m ρ c (Proc.devRef .tc main_v60)
    = dense (biasRelu (aggregate4 (m ((c.tc : Thread nD τ).loc main_arg1))
          (dense (biasRelu (aggregate4 (m ((c.tc : Thread nD τ).loc main_arg1))
              (dense (m ((c.tc : Thread nD τ).loc main_arg0)) (m ((c.tc : Thread nD τ).loc main_arg2))))
            (m ((c.tc : Thread nD τ).loc main_arg3))) (m ((c.tc : Thread nD τ).loc main_arg4))))
        (m ((c.tc : Thread nD τ).loc main_arg5))) (m ((c.tc : Thread nD τ).loc main_arg6)) := by
  refine (W8_arr m ρ c 3).trans ((region2_out (V7 m ρ) c).trans ?_)
  show dense (biasRelu (W7 m ρ c (Proc.devRef .tc main_v58)) (rowVec (W7 m ρ c (Proc.devRef .tc main_v59)))) (W7 m ρ c (Proc.devRef .tc main_arg6)) = _
  rw [host2_agg m ρ c, host2_bias m ρ c, entry2_arg6 m ρ c, value_xw2 m ρ c, rowVec_reshape4]

/-- The node table after the three layers, of this program's argument arrays. -/
def kernelY3 (c : Dev nD) : Buf (Elt Ideal) ((c.tc : Thread nD τ).loc main_v76_1) :=
  refY3 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The classifier's logits of that table. -/
def kernelOut (c : Dev nD) : Buf (Elt Ideal) ((c.tc : Thread nD τ).loc main_v76_0) :=
  addBias (dense (kernelY3 m c) (m ((c.tc : Thread nD τ).loc main_arg8))) (m ((c.tc : Thread nD τ).loc main_arg9))

/-- The second result. -/
theorem value_y3 (c : Dev nD) : W10 m ρ c (Proc.devRef .tc main_v76_1) = kernelY3 m c := by
  refine (W10_arr m ρ c 5).trans ((region3_y (V9 m ρ) c).trans ?_)
  show biasRelu (W9 m ρ c (Proc.devRef .tc main_v73)) (rowVec (W9 m ρ c (Proc.devRef .tc main_v74))) = _
  rw [host3_agg m ρ c, host3_bias m ρ c, value_xw3 m ρ c, rowVec_reshape2]
  rfl

/-- The first result. -/
theorem value_out (c : Dev nD) : W10 m ρ c (Proc.devRef .tc main_v76_0) = kernelOut m c := by
  refine (W10_arr m ρ c 4).trans ((region3_out (V9 m ρ) c).trans ?_)
  show addBias (dense (biasRelu (W9 m ρ c (Proc.devRef .tc main_v73)) (rowVec (W9 m ρ c (Proc.devRef .tc main_v74)))) (W9 m ρ c (Proc.devRef .tc main_arg8)))
      (rowVec (W9 m ρ c (Proc.devRef .tc main_v75))) = _
  rw [host3_agg m ρ c, host3_bias m ρ c, host3_cbias m ρ c, entry3_arg8 m ρ c, value_xw3 m ρ c, rowVec_reshape2, rowVec_reshape4]
  rfl

/-- The run, read: every weakly fair execution terminates with the two results at those functions of the arguments
    and the arguments unchanged. -/
theorem run_value : θ_run defs (onTc (τ := τ) (main (F := Ideal))) ⟨m, fun _ => 0, ρ⟩ (fun r => ∀ c : Dev nD,
      r.2.mem ((c.tc : Thread nD τ).loc main_v76_0) = kernelOut m c
      ∧ r.2.mem ((c.tc : Thread nD τ).loc main_v76_1) = kernelY3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value_out m ρ c), (h c).2.1.trans (value_y3 m ρ c), (h c).2.2⟩)
    (run_results m ρ)

end Cert.KernelIdeal.Hand

end
-- ==== Proof.lean ====
/-
  A three-layer graph-convolution network with a linear classifier, over a fixed edge list with self loops and the
  symmetric degree normalisation: the kernel program against its plain reference, on the extended reals.

  Both programs compute, for node features x, weights W1, W2, W3, Wc and biases b1, b2, b3, bc,
      y1 = max(A(x · W1) + b1, 0)     y2 = max(A(y1 · W2) + b2, 0)     y3 = max(A(y2 · W3) + b3, 0)     out = y3 · Wc + bc
  where A aggregates a node table along the edges. They differ only in where the bias and the rectifier sit: the
  reference applies them on the host after each aggregation, the kernel fuses them into the next dense layer's
  region, which it runs in ten blocks of 10000 rows with the operands cast to bf16 (the identity on the extended reals)
  and the product accumulated from zero. No law of arithmetic beyond "the same operations in the same order" joins the
  two sides, so the precondition (finite inputs) is never opened: the aggregation is the same composition of host
  operations on both sides and is carried as one function; each region's output array is shown to be one whole-array
  function of its inputs (a block is its rows, the ten blocks cover the array), and that function is the reference's
  dense stage read at an index, a sum over the one contracted axis.

  The idealization rewrote no operation, so `preserves` has no conjunct.
-/
import proofs.«104388_j25469156065531_1_alg».proof.Defs
import proofs.«104388_j25469156065531_1_alg».proof.Proof.Gen.Kernel
import proofs.«104388_j25469156065531_1_alg».proof.Proof.Gen.Kernel.Frame
import proofs.«104388_j25469156065531_1_alg».proof.Proof.Gen.KernelIdeal
import proofs.«104388_j25469156065531_1_alg».proof.Proof.Gen.KernelIdeal.Frame
import proofs.«104388_j25469156065531_1_alg».proof.Proof.Gen.ReferenceIdeal
import proofs.«104388_j25469156065531_1_alg».proof.Proof.Gen.Pre_finite_inputs
import proofs.«104388_j25469156065531_1_alg».proof.Proof.RefRun
import proofs.«104388_j25469156065531_1_alg».proof.Proof.RefRead
import proofs.«104388_j25469156065531_1_alg».proof.Proof.RefSide
import proofs.«104388_j25469156065531_1_alg».proof.Proof.KernelValue
import Idealize.ShloMosaic.Adequacy
import Idealize.ShloMosaic.Init

noncomputable section

namespace Cert.Proof.GraphConvClaims

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

theorem preserves : Cert.preserves_Kernel_KernelIdeal := trivial

/-- From memories agreeing on the arguments both programs end with the classifier's logits and the last layer's node
    table, each the same function of the arguments: the kernel's by its regions and host stretches read boundary by
    boundary, the reference's by its host operations read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5, a6, a7, a8, a9⟩ := hagree c
    rw [Cert.ReferenceIdeal.ReadP.val_main_v87_eq, Cert.ReferenceIdeal.RefValue.result_out, a0, a1, a2, a3, a4, a5, a6, a7, a8, a9]
    rfl
  · obtain ⟨a0, a1, a2, a3, a4, a5, a6, a7, a8, a9⟩ := hagree c
    rw [Cert.ReferenceIdeal.ReadP.val_main_v83_eq, Cert.ReferenceIdeal.RefValue.result_y3, a0, a1, a2, a3, a4, a5, a6, a7]
    rfl

end Cert.Proof.GraphConvClaims

namespace Cert.Proof

theorem claim : Cert.Claim :=
  ⟨Cert.Kernel.Gen.facts, Cert.KernelIdeal.Gen.facts, Cert.ReferenceIdeal.Gen.facts, Cert.Pre_finite_inputs.Gen.facts,
    GraphConvClaims.frame_kernel, GraphConvClaims.frame_kernelIdeal, GraphConvClaims.frame_reference,
    GraphConvClaims.preserves, GraphConvClaims.algebraic⟩

end Cert.Proof

end
